-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x512x512 : Shape := ⟨4, ![32, 16, 512, 512]⟩
abbrev S_ : Shape := ⟨0, ![]⟩

class Facts : Prop where
  bcast_S_S32x16x512x512 : S_.BroadcastsInDim S32x16x512x512 (![] : Fin 0 → Fin S32x16x512x512.rank)
  reducesTo_S32x16x512x512_S_d0_1_2_3 : S32x16x512x512.ReducesTo [0, 1, 2, 3] S_
  h_S_ : 0 < S_.numel

variable [Facts]

def fn {F : FTy → Type} [FloatOps F] (main_arg0 : FVec F S32x16x512x512 .f32) : IVec S_ 1 :=
  let main_v0 : FVec F S32x16x512x512 .f32 := Host.absf main_arg0
  let main_cst : FVec F S_ .f32 := constant S_ .f32 0x7F800000#32
  let main_v1 : FVec F S32x16x512x512 .f32 := broadcastInDim S32x16x512x512 ![] bcast_S_S32x16x512x512 main_cst
  let main_v2 : IVec S32x16x512x512 1 := cmpf .olt main_v0 main_v1
  let main_c : IVec S_ 1 := constantI S_ 1 1#1
  let main_v3 : IVec S_ 1 := (fun x v => Host.reduce IntOp.andi x v reducesTo_S32x16x512x512_S_d0_1_2_3 h_S_) main_v2 main_c
  main_v3
-- ==== Kernel.lean ====
abbrev S32x16x512x512 : Shape := ⟨4, ![32, 16, 512, 512]⟩
abbrev S32x16 : Shape := ⟨2, ![32, 16]⟩
abbrev S8x16x64x512 : Shape := ⟨4, ![8, 16, 64, 512]⟩
abbrev S8x16 : Shape := ⟨2, ![8, 16]⟩
abbrev S8x16x64 : Shape := ⟨3, ![8, 16, 64]⟩
abbrev S32x64 : Shape := ⟨2, ![32, 64]⟩

abbrev nBuf : Space → Nat
  | .hbm => 6
  | .vmem => 14
  | .smem => 0
  | _ => 0

abbrev bufTy : (tb : Table) → Fin (tcTables nBuf tb) → BufTy
  | .hbm, ⟨0, _⟩ => ⟨S32x16x512x512, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S32x16, .f32⟩
  | .hbm, ⟨5, _⟩ => ⟨S32x64, .f32⟩
  | .local _ .vmem, ⟨0, _⟩ => ⟨S8x16x64x512, .f32⟩
  | .local _ .vmem, ⟨1, _⟩ => ⟨S8x16x64x512, .f32⟩
  | .local _ .vmem, ⟨2, _⟩ => ⟨S8x16, .f32⟩
  | .local _ .vmem, ⟨3, _⟩ => ⟨S8x16, .f32⟩
  | .local _ .vmem, ⟨4, _⟩ => ⟨S8x16, .f32⟩
  | .local _ .vmem, ⟨5, _⟩ => ⟨S8x16, .f32⟩
  | .local _ .vmem, ⟨6, _⟩ => ⟨S8x16, .f32⟩
  | .local _ .vmem, ⟨7, _⟩ => ⟨S8x16, .f32⟩
  | .local _ .vmem, ⟨8, _⟩ => ⟨S8x16, .f32⟩
  | .local _ .vmem, ⟨9, _⟩ => ⟨S8x16, .f32⟩
  | .local _ .vmem, ⟨10, _⟩ => ⟨S8x16, .f32⟩
  | .local _ .vmem, ⟨11, _⟩ => ⟨S8x16, .f32⟩
  | .local _ .vmem, ⟨12, _⟩ => ⟨S8x16, .f32⟩
  | .local _ .vmem, ⟨13, _⟩ => ⟨S8x16, .f32⟩
  | _, _ => ⟨S32x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_27 : BitVec 32 := 0#32
  let v35 : BitVec 1 := Scalar.cmpi .ne v34 c0_i32_27
  v35

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x16x64x512_S8x16x64x512_0_0_0_0 : ∀ a, (![0, 0, 0, 0] : Fin 4 → Nat) a + S8x16x64x512.size a ≤ S8x16x64x512.size a
  h_S8x16x64x512 : 0 < S8x16x64x512.numel
  reduces_S8x16x64x512_S8x16x64 : S8x16x64x512.Reduces [3] S8x16x64
  reduces_S8x16x64_S8x16 : S8x16x64.Reduces [2] S8x16
  concatenates_S32x16_S32x16_S32x16_S32x16_S32x64_d1 : Shape.Concatenates [S32x16, S32x16, S32x16, S32x16] S32x64 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x64x512.size a ≤ S32x16x512x512.size a
  hwx0_0 : ∀ i : grid0.Coords, EltTy.bits .f32 = 32 ∨ (Rect.block (s := S32x16x512x512) S8x16x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S32x16.size a
  hwx0_1 : ∀ i : grid0.Coords, EltTy.bits .f32 = 32 ∨ (Rect.block (s := S32x16) S8x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S32x16.size a
  hwx0_2 : ∀ i : grid0.Coords, EltTy.bits .f32 = 32 ∨ (Rect.block (s := S32x16) S8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S32x16.size a
  hwx0_3 : ∀ i : grid0.Coords, EltTy.bits .f32 = 32 ∨ (Rect.block (s := S32x16) S8x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16.size a ≤ S32x16.size a
  hwx0_4 : ∀ i : grid0.Coords, EltTy.bits .f32 = 32 ∨ (Rect.block (s := S32x16) S8x16.size (cc0_transform_4 i) (hinb0_4 i)).WholeWords (EltTy.packing .f32)

variable [Facts₀]

abbrev win0_0 : Pipeline.Window sig grid0 :=
  Pipeline.Window.ofSpec (Memref.whole main_arg0) S8x16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x16.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S8x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S8x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun i => !(k0_cond2 i == 1#1) | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x16x512x512 : Shape := ⟨4, ![32, 16, 512, 512]⟩
abbrev S_ : Shape := ⟨0, ![]⟩
abbrev S32x16 : Shape := ⟨2, ![32, 16]⟩
abbrev S32x16x1x1 : Shape := ⟨4, ![32, 16, 1, 1]⟩
abbrev S32x64 : Shape := ⟨2, ![32, 64]⟩

abbrev nBuf : Space → Nat
  | .hbm => 35
  | .vmem => 0
  | .smem => 0
  | _ => 0

abbrev bufTy : (tb : Table) → Fin (tcTables nBuf tb) → BufTy
  | .hbm, ⟨0, _⟩ => ⟨S32x16x512x512, .f32⟩
  | .hbm, ⟨1, _⟩ => ⟨S_, .f32⟩
  | .hbm, ⟨2, _⟩ => ⟨S32x16, .f32⟩
  | .hbm, ⟨3, _⟩ => ⟨S_, .f32⟩
  | .hbm, ⟨4, _⟩ => ⟨S32x16, .f32⟩
  | .hbm, ⟨5, _⟩ => ⟨S32x16, .f32⟩
  | .hbm, ⟨6, _⟩ => ⟨S_, .i32⟩
  | .hbm, ⟨7, _⟩ => ⟨S_, .f32⟩
  | .hbm, ⟨8, _⟩ => ⟨S32x16, .f32⟩
  | .hbm, ⟨9, _⟩ => ⟨S32x16x1x1, .f32⟩
  | .hbm, ⟨10, _⟩ => ⟨S_, .f32⟩
  | .hbm, ⟨11, _⟩ => ⟨S32x16x1x1, .f32⟩
  | .hbm, ⟨12, _⟩ => ⟨S32x16x1x1, .f32⟩
  | .hbm, ⟨13, _⟩ => ⟨S32x16x512x512, .f32⟩
  | .hbm, ⟨14, _⟩ => ⟨S32x16x512x512, .f32⟩
  | .hbm, ⟨15, _⟩ => ⟨S32x16x512x512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x16, .f32⟩
  | .hbm, ⟨21, _⟩ => ⟨S32x16, .f32⟩
  | .hbm, ⟨22, _⟩ => ⟨S32x16, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S_, .f32⟩
  | .hbm, ⟨33, _⟩ => ⟨S32x16, .f32⟩
  | .hbm, ⟨34, _⟩ => ⟨S32x64, .f32⟩
  | _, _ => ⟨S32x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_cst_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_cst_2 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_cst_3 : Ref sig .tc := ⟨.hbm, 23, rfl⟩
abbrev main_call0_call0_v12 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_call0_call0_v1 : Ref sig .tc := ⟨.hbm, 27, rfl⟩
abbrev main_call0_v0 : Ref sig .tc := ⟨.hbm, 28, rfl⟩
abbrev main_v3 : Ref sig .tc := ⟨.hbm, 29, rfl⟩
abbrev main_cst_1 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩

abbrev nD : Nat := 1
abbrev τ : Topo := Topo.v7x

variable {F : FTy → Type} [FloatOps F]

class Facts₀ : Prop where
  reducesTo_S32x16x512x512_S32x16_d2_3 : S32x16x512x512.ReducesTo [2, 3] S32x16
  h_S_ : 0 < S_.numel
  bcast_S_S32x16 : S_.BroadcastsInDim S32x16 (![] : Fin 0 → Fin S32x16.rank)
  bcast_S32x16_S32x16x1x1_0_1 : S32x16.BroadcastsInDim S32x16x1x1 (![0, 1] : Fin 2 → Fin S32x16x1x1.rank)
  bcast_S_S32x16x1x1 : S_.BroadcastsInDim S32x16x1x1 (![] : Fin 0 → Fin S32x16x1x1.rank)
  bcast_S32x16x1x1_S32x16x512x512_0_1_2_3 : S32x16x1x1.BroadcastsInDim S32x16x512x512 (![0, 1, 2, 3] : Fin 4 → Fin S32x16x512x512.rank)
  concatenates_S32x16_S32x16_S32x16_S32x16_S32x64_d1 : Shape.Concatenates [S32x16, S32x16, S32x16, S32x16] S32x64 1

variable [Facts₀]

class Facts : Prop extends Facts₀ where

variable [Facts]
-- ==== Proof.WordSteps.lean ====
import proofs.«168508_j23227183136952_2_alg».proof.Proof.Gen.Kernel.Launch
import proofs.«168508_j23227183136952_2_alg».proof.Proof.Gen.Kernel.Skeleton
import proofs.«168508_j23227183136952_2_alg».proof.Proof.Gen.Kernel.Points
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

/-! ## Whole-block loads and stores read back

Every load and store of the body goes through the rectangle that is the whole buffer (offsets all zero, the
buffer's own sizes). Through it a load of contents X reads X, a store of w leaves w whatever was stored
before it, and a load after such a store reads w. -/

section WholeBlock

variable {Val : EltTy → Type} [∀ e, Nonempty (Val e)] {sg : RefSig} {κ : Kind} {sp : Space} {S : Shape} {e : EltTy}

/-- What a buffer reads after a store of `w` through the whole rectangle, whatever was stored before. -/
theorem read_store_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hcov : ∀ y : S.Idx, ∃ p ∈ ((⟨Rect.unit off S.size inb, w⟩ : View.Piece Val S e) :: L), y ∈ p.1.set :=
    fun y => ⟨⟨Rect.unit off S.size inb, w⟩, List.mem_cons.mpr (Or.inl rfl), View.mem_set_unit_zero h inb y⟩
  rw [View.read_writes_eq_canon v f _ hcov, View.canon_cons_unit_zero h inb]

/-- A whole-rectangle load after such a store reads `w`. -/
theorem readCov_store_whole (v : View sg κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  have hcov : ∀ y : S.Idx, ∃ p ∈ ((⟨Rect.unit off S.size inb, w⟩ : View.Piece Val S e) :: L), y ∈ p.1.set :=
    fun y => ⟨⟨Rect.unit off S.size inb, w⟩, List.mem_cons.mpr (Or.inl rfl), View.mem_set_unit_zero h inb y⟩
  rw [View.readCov_eq_canon_ld v _ _ hcov, View.canon_cons_unit_zero h inb, View.ld_unit_zero h inb]

/-- A whole-rectangle load of a whole buffer holding `X` reads `X`. -/
theorem readAt_whole (a : Memref sg κ sp S e) (ha : a.IsWhole) (X : S.Idx → Val e) {off : Fin S.rank → ℕ} (h : off = fun _ => 0)
    (inb : ∀ a, off a + S.size a ≤ S.size a) :
    a.view.readAt Val (Rect.unit off S.size inb).toLoadRect (ha.unread X) = X := by
  rw [View.readAt_eq_ld, ha.read_unread, View.ld_unit_zero h inb]

end WholeBlock

theorem zeros2 : (![0, 0] : Fin 2 → ℕ) = fun _ => 0 := by
  funext a; match a with | ⟨0, _⟩ => rfl | ⟨1, _⟩ => rfl
theorem zeros4 : (![0, 0, 0, 0] : Fin 4 → ℕ) = fun _ => 0 := by
  funext a; match a with | ⟨0, _⟩ => rfl | ⟨1, _⟩ => rfl | ⟨2, _⟩ => rfl | ⟨3, _⟩ => rfl

/-- The three readings at the body's two block shapes. -/
theorem read_store2 (v : View sig .tc .vmem S8x16 .f32) (f : v.ty.Contents (Elt F))
    (inb : ∀ a, (![0, 0] : Fin 2 → ℕ) a + S8x16.size a ≤ S8x16.size a) (w : Vec F S8x16 .f32)
    (L : List (View.Piece (Elt F) S8x16 .f32)) :
    v.read (Elt F) (v.writes (Elt F) f ((⟨Rect.unit ![0, 0] S8x16.size inb, w⟩ : View.Piece (Elt F) S8x16 .f32) :: L)) = w :=
  read_store_whole (S := S8x16) v f zeros2 inb w L

theorem readCov_store2 (v : View sig .tc .vmem S8x16 .f32)
    (inb : ∀ a, (![0, 0] : Fin 2 → ℕ) a + S8x16.size a ≤ S8x16.size a) (w : Vec F S8x16 .f32)
    (L : List (View.Piece (Elt F) S8x16 .f32)) :
    v.readCov ((⟨Rect.unit ![0, 0] S8x16.size inb, w⟩ : View.Piece (Elt F) S8x16 .f32) :: L) (Rect.unit ![0, 0] S8x16.size inb).toLoadRect = w :=
  readCov_store_whole (S := S8x16) v zeros2 inb w L

theorem readAt_block2 (a : Memref sig .tc .vmem S8x16 .f32) (ha : a.IsWhole) (X : Vec F S8x16 .f32)
    (inb : ∀ a, (![0, 0] : Fin 2 → ℕ) a + S8x16.size a ≤ S8x16.size a) :
    a.view.readAt (Elt F) (Rect.unit ![0, 0] S8x16.size inb).toLoadRect (ha.unread X) = X :=
  readAt_whole (S := S8x16) a ha X zeros2 inb

theorem readAt_block4 (a : Memref sig .tc .vmem S8x16x64x512 .f32) (ha : a.IsWhole) (X : Vec F S8x16x64x512 .f32)
    (inb : ∀ a, (![0, 0, 0, 0] : Fin 4 → ℕ) a + S8x16x64x512.size a ≤ S8x16x64x512.size a) :
    a.view.readAt (Elt F) (Rect.unit ![0, 0, 0, 0] S8x16x64x512.size inb).toLoadRect (ha.unread X) = X :=
  readAt_whole (S := S8x16x64x512) a ha X zeros4 inb

/-! ## The two branch conditions, from the grid point -/

/-- "This is the first row block of its batch block": the second grid coordinate is 0. -/
abbrev cond1 (i : grid0.Coords) : Prop := (Scalar.cmpi .ne (Scalar.extui (Scalar.cmpi .eq (BitVec.ofNat 32 (i 1).val) 0#32)) 0#32) = 1#1
/-- "This is the last row block": the second grid coordinate is 7. -/
abbrev cond2 (i : grid0.Coords) : Prop := k0_cond2 i = 1#1

/-! ## One point's update of the four running statistics

The body keeps four [8,16] accumulators: the running sum, sum of squares, maximum and minimum of the rows seen
so far. At a point it folds the block's row-and-lane reductions into them (the payloads below); at a batch
block's first point it first resets them to 0, 0, -inf, +inf; at its last point it also stores the mean, the
standard deviation, the maximum and the minimum into the four output blocks. -/

/-- The accumulators after a point, from the block `x` and the accumulators before it. -/
def stepSum (x : Vec F S8x16x64x512 .f32) (s : Vec F S8x16 .f32) : Vec F S8x16 .f32 := k0_pay9 x s
def stepSq (x : Vec F S8x16x64x512 .f32) (s : Vec F S8x16 .f32) : Vec F S8x16 .f32 := k0_pay10 x s
def stepMax (x : Vec F S8x16x64x512 .f32) (s : Vec F S8x16 .f32) : Vec F S8x16 .f32 := k0_pay11 x s
def stepMin (x : Vec F S8x16x64x512 .f32) (s : Vec F S8x16 .f32) : Vec F S8x16 .f32 := k0_pay1 (k0_pay8 x) s

end Cert.Kernel.Hand

end
-- ==== Proof.WordData.lean ====
import Idealize.ShloMosaic.Lib.Pipeline.Value
import proofs.«168508_j23227183136952_2_alg».proof.Proof.WordSteps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region

@main is the region followed by one host operation, the concatenation of the region's four result arrays. Nothing
runs before the region, so the region finds every buffer at its launch contents. -/

/-- A core's buffer contents when the region is entered: the launch contents. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem V_arg0 (c : Dev nD) : V m c main_arg0 = m ((c : Thread nD τ).loc main_arg0) := rfl

/-- The concatenation allocates nothing. -/
theorem tailOps_fresh : (hostOps1 : List (HloOp τ sig (Elt F))).Forall fun op => op.fresh = ∅ := by
  simp only [List.Forall]; first | rfl | (repeat' constructor)

/-- @main is the region continued by the concatenation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The concatenation touches unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- allocates nothing, -/
theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp tailOps_fresh) op hop

/-- and writes only its own result buffer, which is none of the region's five arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  show Proc.devRef .tc (Pipeline.arrRef spec0 w) ∉ ({(main_v1 : DevRef τ sig)} : Finset (DevRef τ sig))
  rw [Finset.mem_singleton]
  fin_cases w <;> exact StableHlo.devRef_ne_of_ne (by decide)

/-! ## The input's blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, whether the point fetches it or the
    index has not moved since the last fetch. -/
theorem before_input {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid, and where the output windows are idle

Point t of the 32 is (batch block t / 8, row block t % 8). -/

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 = 7 :=
  (by decide +kernel : ∀ t : Fin grid0.N, cond2 (grid0.coords t) ↔ t.val % 8 = 7)

theorem live0 : ∀ t : Fin cfg0.N, cfg0.idle 0 (grid0.coords t) = false := by decide +kernel
theorem idle1 : ∀ t : Fin cfg0.N, ¬t.val % 8 = 7 → cfg0.idle 1 (grid0.coords t) = true ∧ (cfg0.win 1).flush t = false := by decide +kernel
theorem idle2 : ∀ t : Fin cfg0.N, ¬t.val % 8 = 7 → cfg0.idle 2 (grid0.coords t) = true ∧ (cfg0.win 2).flush t = false := by decide +kernel
theorem idle3 : ∀ t : Fin cfg0.N, ¬t.val % 8 = 7 → cfg0.idle 3 (grid0.coords t) = true ∧ (cfg0.win 3).flush t = false := by decide +kernel
theorem idle4 : ∀ t : Fin cfg0.N, ¬t.val % 8 = 7 → cfg0.idle 4 (grid0.coords t) = true ∧ (cfg0.win 4).flush t = false := by decide +kernel
theorem live1 : ∀ t : Fin cfg0.N, t.val % 8 = 7 → cfg0.idle 1 (grid0.coords t) = false := by decide +kernel
theorem live2 : ∀ t : Fin cfg0.N, t.val % 8 = 7 → cfg0.idle 2 (grid0.coords t) = false := by decide +kernel
theorem live3 : ∀ t : Fin cfg0.N, t.val % 8 = 7 → cfg0.idle 3 (grid0.coords t) = false := by decide +kernel
theorem live4 : ∀ t : Fin cfg0.N, t.val % 8 = 7 → cfg0.idle 4 (grid0.coords t) = false := by decide +kernel

/-! ## The memrefs the body is called with -/

abbrev ms0 (t : Fin cfg0.N) : Memref sig .tc .vmem S8x16x64x512 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S8x16 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S8x16 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S8x16 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S8x16 .f32 := win0_4.stage (cfg0.slots t 4)
abbrev hs4 (t : Fin cfg0.N) : (ms4 t).IsWhole := Facts₀.hstage0_4 ((cfg0.slots t 4).cast Facts₀.nbuf0_4)
/-- The four accumulators: whole scoped buffers of the kernel's own. -/
abbrev sc0 : Memref sig .tc .vmem S8x16 .f32 := Memref.whole cc0_scratch0
abbrev sc1 : Memref sig .tc .vmem S8x16 .f32 := Memref.whole cc0_scratch1
abbrev sc2 : Memref sig .tc .vmem S8x16 .f32 := Memref.whole cc0_scratch2
abbrev sc3 : Memref sig .tc .vmem S8x16 .f32 := Memref.whole cc0_scratch3

/-- What the launch hands the region, with the four accumulators as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The accumulators point by point -/

/-- The four accumulators (sum, sum of squares, maximum, minimum). -/
abbrev Acc (F : FTy → Type) [FloatOps F] : Type := Vec F S8x16 .f32 × Vec F S8x16 .f32 × Vec F S8x16 .f32 × Vec F S8x16 .f32

/-- Their values at the start of a batch block: 0, 0, -inf, +inf. -/
def accInit : Acc F := (k0_pay4, k0_pay5, k0_pay6, k0_pay7)

/-- One block folded in. -/
def accStep (x : Vec F S8x16x64x512 .f32) (a : Acc F) : Acc F :=
  (stepSum x a.1, stepSq x a.2.1, stepMax x a.2.2.1, stepMin x a.2.2.2)

/-- What the four output blocks receive at a batch block's last point: mean, standard deviation, maximum, minimum. -/
def accOut (a : Acc F) : Acc F := (k0_pay2 a.1, k0_pay3 a.2.1 a.1, a.2.2.1, a.2.2.2)

/-- The accumulators after the body at position `n`: the position's block folded into the start values at a batch
    block's first point, else into what the position before left. -/
def accAt (c : Dev nD) : (n : ℕ) → n < cfg0.N → Acc F
  | 0, hn => accStep (iblk m c 0 ⟨0, hn⟩) accInit
  | n + 1, hn => accStep (iblk m c 0 ⟨n + 1, hn⟩) (if (n + 1) % 8 = 0 then accInit else accAt c n (Nat.lt_of_succ_lt hn))

theorem accAt_first (c : Dev nD) (t : Fin cfg0.N) (h : t.val % 8 = 0) :
    accAt m c t.val t.isLt = accStep (iblk m c 0 t) accInit := by
  obtain ⟨n, hn⟩ := t
  cases n with
  | zero => rfl
  | succ n => exact congrArg (accStep _) (if_pos h)

theorem accAt_next (c : Dev nD) (t : Fin cfg0.N) (h : ¬t.val % 8 = 0) :
    accAt m c t.val t.isLt = accStep (iblk m c 0 t) (accAt m c (t.val - 1) (Nat.lt_of_le_of_lt (Nat.sub_le _ _) t.isLt)) := by
  obtain ⟨n, hn⟩ := t
  cases n with
  | zero => exact absurd (Nat.zero_mod _) h
  | succ n => exact congrArg (accStep _) (if_neg h)

/-- The region's invariant before position `n`: before the first point what the launch hands over (the accumulators
    at anything); afterwards the accumulators at what the position before left, and the generator register at some
    state. -/
def PhiS (c : Dev nD) : (n : ℕ) → n ≤ cfg0.N → sProp 𝕄
  | 0, _ => Pipeline.ΦA spec0 c
  | n + 1, hn => iprop(iprop(owns (c : Thread nD τ) sc0 fullShare (accAt m c n hn).1 ∗ owns (c : Thread nD τ) sc1 fullShare (accAt m c n hn).2.1 ∗ owns (c : Thread nD τ) sc2 fullShare (accAt m c n hn).2.2.1 ∗ owns (c : Thread nD τ) sc3 fullShare (accAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (accAt m c n hn).1 ∗ owns (c : Thread nD τ) sc1 fullShare (accAt m c n hn).2.1 ∗ owns (c : Thread nD τ) sc2 fullShare (accAt m c n hn).2.2.1 ∗ owns (c : Thread nD τ) sc3 fullShare (accAt m c n hn).2.2.2) ∗ (∃ r, prngReg c r)) := rfl

theorem PhiS_pos (c : Dev nD) (n : ℕ) (h : n ≤ cfg0.N) (hz : n ≠ 0) :
    PhiS m c n h = iprop(iprop(owns (c : Thread nD τ) sc0 fullShare (accAt m c (n - 1) (by omega)).1 ∗ owns (c : Thread nD τ) sc1 fullShare (accAt m c (n - 1) (by omega)).2.1 ∗ owns (c : Thread nD τ) sc2 fullShare (accAt m c (n - 1) (by omega)).2.2.1 ∗ owns (c : Thread nD τ) sc3 fullShare (accAt m c (n - 1) (by omega)).2.2.2) ∗ (∃ r, prngReg c r)) := by
  cases n with
  | zero => exact absurd rfl hz
  | succ n => rfl

/-! ## The proof data -/

/-- After the body at point `t`: the input's buffer at its block; the four output buffers at the statistics of the
    accumulators there (consulted only at a batch block's last point, where they are stored and written back). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (accOut (accAt m c t.val t.isLt)).1
    | ⟨2, _⟩ => (accOut (accAt m c t.val t.isLt)).2.1
    | ⟨3, _⟩ => (accOut (accAt m c t.val t.isLt)).2.2.1
    | ⟨4, _⟩ => (accOut (accAt m c t.val t.isLt)).2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = (accOut (accAt m c t.val t.isLt)).1 := by dsimp only [dats]
theorem after_2 (c : Dev nD) (t : Fin cfg0.N) : (dats m 0 c).after 2 t = (accOut (accAt m c t.val t.isLt)).2.1 := by dsimp only [dats]
theorem after_3 (c : Dev nD) (t : Fin cfg0.N) : (dats m 0 c).after 3 t = (accOut (accAt m c t.val t.isLt)).2.2.1 := by dsimp only [dats]
theorem after_4 (c : Dev nD) (t : Fin cfg0.N) : (dats m 0 c).after 4 t = (accOut (accAt m c t.val t.isLt)).2.2.2 := by dsimp only [dats]

theorem before_0 (c : Dev nD) (t : Fin cfg0.N) (d) : (dats m 0 c).before 0 t d = iblk m c 0 t :=
  before_input m (dats m 0 c) (A_eq m c 0) (after_0 m c) t d

end Cert.Kernel.Hand

end
-- ==== Proof.WordRunFirst.lean ====
import Idealize.ShloMosaic.Lib.Pipeline.Value
import proofs.«168508_j23227183136952_2_alg».proof.Proof.WordSteps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

set_option maxHeartbeats 1000000 in
/-- The body at a batch block's first point (the reset taken, the output stores not): whatever the four accumulators
    held, they end at the block folded into 0, 0, -inf, +inf; the input and the four output buffers are as they were. -/
theorem runFirst (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hc1 : cond1 i) (hc2 : ¬cond2 i)
    (x0 : Vec F S8x16x64x512 .f32) (y1 y2 y3 y4 s0 s1 s2 s3 : Vec F S8x16 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare s0 ∗ owns (c : Thread nD τ) arg8 fullShare s1 ∗ owns (c : Thread nD τ) arg9 fullShare s2 ∗ owns (c : Thread nD τ) arg10 fullShare s3
        ∗ (iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare (stepSum x0 k0_pay4) ∗ owns (c : Thread nD τ) arg8 fullShare (stepSq x0 k0_pay5) ∗ owns (c : Thread nD τ) arg9 fullShare (stepMax x0 k0_pay6) ∗ owns (c : Thread nD τ) arg10 fullShare (stepMin x0 k0_pay7)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro; unfold stepSum; rewrite [read_store2]; rewrite [readAt_block4]; sl_unfold_run_names; rewrite [readCov_store2]; rfl
  isplitl [H8]
  · iexists _; isplitr
    swap; · iexact H8
    ipureintro; unfold stepSq; rewrite [read_store2]; rewrite [readAt_block4]; sl_unfold_run_names; rewrite [readCov_store2]; rfl
  isplitl [H9]
  · iexists _; isplitr
    swap; · iexact H9
    ipureintro; unfold stepMax; rewrite [read_store2]; rewrite [readAt_block4]; sl_unfold_run_names; rewrite [readCov_store2]; rfl
  iexists _; isplitr
  swap; · iexact H10
  ipureintro; unfold stepMin; rewrite [read_store2]; rewrite [readAt_block4]; sl_unfold_run_names; rewrite [readCov_store2]; rfl

end Cert.Kernel.Hand

end
-- ==== Proof.WordRunMid.lean ====
import Idealize.ShloMosaic.Lib.Pipeline.Value
import proofs.«168508_j23227183136952_2_alg».proof.Proof.WordSteps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

set_option maxHeartbeats 1000000 in
/-- The body at a middle point (neither branch taken): the block is folded into the accumulators; the input and the
    four output buffers are as they were. -/
theorem runMid (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hc1 : ¬cond1 i) (hc2 : ¬cond2 i)
    (x0 : Vec F S8x16x64x512 .f32) (y1 y2 y3 y4 s0 s1 s2 s3 : Vec F S8x16 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare s0 ∗ owns (c : Thread nD τ) arg8 fullShare s1 ∗ owns (c : Thread nD τ) arg9 fullShare s2 ∗ owns (c : Thread nD τ) arg10 fullShare s3
        ∗ (iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare (stepSum x0 s0) ∗ owns (c : Thread nD τ) arg8 fullShare (stepSq x0 s1) ∗ owns (c : Thread nD τ) arg9 fullShare (stepMax x0 s2) ∗ owns (c : Thread nD τ) arg10 fullShare (stepMin x0 s3)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro; unfold stepSum; rewrite [read_store2]; rewrite [readAt_block4]; rewrite [readAt_block2]; rfl
  isplitl [H8]
  · iexists _; isplitr
    swap; · iexact H8
    ipureintro; unfold stepSq; rewrite [read_store2]; rewrite [readAt_block4]; rewrite [readAt_block2]; rfl
  isplitl [H9]
  · iexists _; isplitr
    swap; · iexact H9
    ipureintro; unfold stepMax; rewrite [read_store2]; rewrite [readAt_block4]; rewrite [readAt_block2]; rfl
  iexists _; isplitr
  swap; · iexact H10
  ipureintro; unfold stepMin; rewrite [read_store2]; rewrite [readAt_block4]; rewrite [readAt_block2]; rfl

end Cert.Kernel.Hand

end
-- ==== Proof.WordRunLast.lean ====
import Idealize.ShloMosaic.Lib.Pipeline.Value
import proofs.«168508_j23227183136952_2_alg».proof.Proof.WordSteps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

set_option maxHeartbeats 1000000 in
/-- The body at a batch block's last point (no reset, the output stores taken): the block is folded into the
    accumulators, and the four output buffers receive the mean, the standard deviation, the maximum and the minimum
    computed from the accumulators just updated. -/
theorem runLast (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hc1 : ¬cond1 i) (hc2 : cond2 i)
    (x0 : Vec F S8x16x64x512 .f32) (y1 y2 y3 y4 s0 s1 s2 s3 : Vec F S8x16 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare s0 ∗ owns (c : Thread nD τ) arg8 fullShare s1 ∗ owns (c : Thread nD τ) arg9 fullShare s2 ∗ owns (c : Thread nD τ) arg10 fullShare s3
        ∗ (iprop(owns (c : Thread nD τ) arg2 fullShare x0 ∗ owns (c : Thread nD τ) arg3 fullShare (k0_pay2 (stepSum x0 s0)) ∗ owns (c : Thread nD τ) arg4 fullShare (k0_pay3 (stepSq x0 s1) (stepSum x0 s0)) ∗ owns (c : Thread nD τ) arg5 fullShare (stepMax x0 s2) ∗ owns (c : Thread nD τ) arg6 fullShare (stepMin x0 s3) ∗ owns (c : Thread nD τ) arg7 fullShare (stepSum x0 s0) ∗ owns (c : Thread nD τ) arg8 fullShare (stepSq x0 s1) ∗ owns (c : Thread nD τ) arg9 fullShare (stepMax x0 s2) ∗ owns (c : Thread nD τ) arg10 fullShare (stepMin x0 s3)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]
  · iexists _; isplitr
    · ipureintro; exact harg2.read_unread _
    iexact H2
  isplitl [H3]
  · iexists _; isplitr
    swap; · iexact H3
    ipureintro; unfold stepSum; rewrite [read_store2]; sl_unfold_run_names; rewrite [readCov_store2]; rewrite [readAt_block4]; rewrite [readAt_block2]; rfl
  isplitl [H4]
  · iexists _; isplitr
    swap; · iexact H4
    ipureintro; unfold stepSq stepSum; rewrite [read_store2]; sl_unfold_run_names; rewrite [readCov_store2]; rewrite [readCov_store2]; rewrite [readAt_block4]; rewrite [readAt_block2]; rewrite [readAt_block2]; rfl
  isplitl [H5]
  · iexists _; isplitr
    swap; · iexact H5
    ipureintro; unfold stepMax; rewrite [read_store2]; sl_unfold_run_names; rewrite [readCov_store2]; rewrite [readAt_block4]; rewrite [readAt_block2]; rfl
  isplitl [H6]
  · iexists _; isplitr
    swap; · iexact H6
    ipureintro; unfold stepMin; rewrite [read_store2]; sl_unfold_run_names; rewrite [readCov_store2]; rewrite [readAt_block4]; rewrite [readAt_block2]; rfl
  isplitl [H7]
  · iexists _; isplitr
    swap; · iexact H7
    ipureintro; unfold stepSum; sl_unfold_run_names; rewrite [read_store2]; rewrite [readAt_block4]; rewrite [readAt_block2]; rfl
  isplitl [H8]
  · iexists _; isplitr
    swap; · iexact H8
    ipureintro; unfold stepSq; sl_unfold_run_names; rewrite [read_store2]; rewrite [readAt_block4]; rewrite [readAt_block2]; rfl
  isplitl [H9]
  · iexists _; isplitr
    swap; · iexact H9
    ipureintro; unfold stepMax; sl_unfold_run_names; rewrite [read_store2]; rewrite [readAt_block4]; rewrite [readAt_block2]; rfl
  iexists _; isplitr
  swap; · iexact H10
  ipureintro; unfold stepMin; sl_unfold_run_names; rewrite [read_store2]; rewrite [readAt_block4]; rewrite [readAt_block2]; rfl

end Cert.Kernel.Hand

end
-- ==== Proof.WordFrame.lean ====
import Idealize.ShloMosaic.Lib.Pipeline.Value
import proofs.«168508_j23227183136952_2_alg».proof.Proof.WordData
import proofs.«168508_j23227183136952_2_alg».proof.Proof.WordRunFirst
import proofs.«168508_j23227183136952_2_alg».proof.Proof.WordRunMid
import proofs.«168508_j23227183136952_2_alg».proof.Proof.WordRunLast
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation

At point t the body is handed the invariant (the accumulators at what the point before left, or at anything before
the first point), the input buffer at its block and each output buffer at what it held; it returns the invariant at
the accumulators with the block folded in, the input buffer untouched, and the output buffers untouched (at the
points that do not store them, where the windows are idle) or at the four statistics (at a batch block's last
point). Which of the three cases applies is read off t mod 8. -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  have hN : t.val < 32 := lt_of_lt_of_eq t.isLt (show cfg0.N = 32 from N_0)
  by_cases h7 : t.val % 8 = 7
  · -- a batch block's last point
    have h0 : ¬t.val % 8 = 0 := by omega
    have hz : t.val ≠ 0 := by omega
    rw [show (dats m 0 c).leavesExact 1 t = owns (c : Thread nD τ) (ms1 t) fullShare ((dats m 0 c).after 1 t) from by
      unfold Dat.leavesExact; rw [live1 t h7], after_1]
    rw [show (dats m 0 c).leavesExact 2 t = owns (c : Thread nD τ) (ms2 t) fullShare ((dats m 0 c).after 2 t) from by
      unfold Dat.leavesExact; rw [live2 t h7], after_2]
    rw [show (dats m 0 c).leavesExact 3 t = owns (c : Thread nD τ) (ms3 t) fullShare ((dats m 0 c).after 3 t) from by
      unfold Dat.leavesExact; rw [live3 t h7], after_3]
    rw [show (dats m 0 c).leavesExact 4 t = owns (c : Thread nD τ) (ms4 t) fullShare ((dats m 0 c).after 4 t) from by
      unfold Dat.leavesExact; rw [live4 t h7], after_4]
    rw [accAt_next m c t h0]
    unfold accOut accStep; dsimp only
    rw [Phi_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply (runLast c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((hcond1 t).mp h)) ((hcond2 t).mpr h7) (iblk m c 0 t) _ _ _ _ _ _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  · by_cases h0 : t.val % 8 = 0
    · -- a batch block's first point
      rw [Dat.leavesExact_idle (dats m 0 c) 1 t (idle1 t h7).1 (idle1 t h7).2, Dat.leavesExact_idle (dats m 0 c) 2 t (idle2 t h7).1 (idle2 t h7).2,
        Dat.leavesExact_idle (dats m 0 c) 3 t (idle3 t h7).1 (idle3 t h7).2, Dat.leavesExact_idle (dats m 0 c) 4 t (idle4 t h7).1 (idle4 t h7).2]
      rw [accAt_first m c t h0]
      unfold accStep accInit; dsimp only
      by_cases hz : t.val = 0
      · rw [Phi_castSucc m c t, PhiS_zero m c _ _ hz, PhiA_eq]
        iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩⟩
        iapply (runFirst c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) ((hcond1 t).mpr h0) (fun h => h7 ((hcond2 t).mp h)) (iblk m c 0 t) _ _ _ _ _ _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexists _; iexact H1
        isplitl [H2]; · iexists _; iexact H2
        isplitl [H3]; · iexists _; iexact H3
        iexists _; iexact H4
      · rw [Phi_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply (runFirst c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) ((hcond1 t).mpr h0) (fun h => h7 ((hcond2 t).mp h)) (iblk m c 0 t) _ _ _ _ _ _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexists _; iexact H1
        isplitl [H2]; · iexists _; iexact H2
        isplitl [H3]; · iexists _; iexact H3
        iexists _; iexact H4
    · -- a middle point
      have hz : t.val ≠ 0 := fun e => h0 (by rw [e])
      rw [Dat.leavesExact_idle (dats m 0 c) 1 t (idle1 t h7).1 (idle1 t h7).2, Dat.leavesExact_idle (dats m 0 c) 2 t (idle2 t h7).1 (idle2 t h7).2,
        Dat.leavesExact_idle (dats m 0 c) 3 t (idle3 t h7).1 (idle3 t h7).2, Dat.leavesExact_idle (dats m 0 c) 4 t (idle4 t h7).1 (idle4 t h7).2]
      rw [accAt_next m c t h0]
      unfold accStep; dsimp only
      rw [Phi_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (runMid c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((hcond1 t).mp h)) (fun h => h7 ((hcond2 t).mp h)) (iblk m c 0 t) _ _ _ _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexists _; iexact H1
      isplitl [H2]; · iexists _; iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every weakly fair execution of @main terminates; afterwards each of the region's five arrays holds what the
    write-backs left in it, and the result buffer what the concatenation makes of them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- The frame: the program runs to the end and its argument array is unchanged (an input window's array is never
    written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_arg0 m c)))) (run_main m ρ)

end Cert.Kernel.Hand

end
-- ==== Proof.IdealSteps.lean ====
import proofs.«168508_j23227183136952_2_alg».proof.Proof.Gen.KernelIdeal.Launch
import proofs.«168508_j23227183136952_2_alg».proof.Proof.Gen.KernelIdeal.Skeleton
import proofs.«168508_j23227183136952_2_alg».proof.Proof.Gen.KernelIdeal.Points
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

/-! ## Whole-block loads and stores read back

Every load and store of the body goes through the rectangle that is the whole buffer (offsets all zero, the
buffer's own sizes). Through it a load of contents X reads X, a store of w leaves w whatever was stored
before it, and a load after such a store reads w. -/

section WholeBlock

variable {Val : EltTy → Type} [∀ e, Nonempty (Val e)] {sg : RefSig} {κ : Kind} {sp : Space} {S : Shape} {e : EltTy}

/-- What a buffer reads after a store of `w` through the whole rectangle, whatever was stored before. -/
theorem read_store_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hcov : ∀ y : S.Idx, ∃ p ∈ ((⟨Rect.unit off S.size inb, w⟩ : View.Piece Val S e) :: L), y ∈ p.1.set :=
    fun y => ⟨⟨Rect.unit off S.size inb, w⟩, List.mem_cons.mpr (Or.inl rfl), View.mem_set_unit_zero h inb y⟩
  rw [View.read_writes_eq_canon v f _ hcov, View.canon_cons_unit_zero h inb]

/-- A whole-rectangle load after such a store reads `w`. -/
theorem readCov_store_whole (v : View sg κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  have hcov : ∀ y : S.Idx, ∃ p ∈ ((⟨Rect.unit off S.size inb, w⟩ : View.Piece Val S e) :: L), y ∈ p.1.set :=
    fun y => ⟨⟨Rect.unit off S.size inb, w⟩, List.mem_cons.mpr (Or.inl rfl), View.mem_set_unit_zero h inb y⟩
  rw [View.readCov_eq_canon_ld v _ _ hcov, View.canon_cons_unit_zero h inb, View.ld_unit_zero h inb]

/-- A whole-rectangle load of a whole buffer holding `X` reads `X`. -/
theorem readAt_whole (a : Memref sg κ sp S e) (ha : a.IsWhole) (X : S.Idx → Val e) {off : Fin S.rank → ℕ} (h : off = fun _ => 0)
    (inb : ∀ a, off a + S.size a ≤ S.size a) :
    a.view.readAt Val (Rect.unit off S.size inb).toLoadRect (ha.unread X) = X := by
  rw [View.readAt_eq_ld, ha.read_unread, View.ld_unit_zero h inb]

end WholeBlock

theorem zeros2 : (![0, 0] : Fin 2 → ℕ) = fun _ => 0 := by
  funext a; match a with | ⟨0, _⟩ => rfl | ⟨1, _⟩ => rfl
theorem zeros4 : (![0, 0, 0, 0] : Fin 4 → ℕ) = fun _ => 0 := by
  funext a; match a with | ⟨0, _⟩ => rfl | ⟨1, _⟩ => rfl | ⟨2, _⟩ => rfl | ⟨3, _⟩ => rfl

/-- The three readings at the body's two block shapes. -/
theorem read_store2 (v : View sig .tc .vmem S8x16 .f32) (f : v.ty.Contents (Elt F))
    (inb : ∀ a, (![0, 0] : Fin 2 → ℕ) a + S8x16.size a ≤ S8x16.size a) (w : Vec F S8x16 .f32)
    (L : List (View.Piece (Elt F) S8x16 .f32)) :
    v.read (Elt F) (v.writes (Elt F) f ((⟨Rect.unit ![0, 0] S8x16.size inb, w⟩ : View.Piece (Elt F) S8x16 .f32) :: L)) = w :=
  read_store_whole (S := S8x16) v f zeros2 inb w L

theorem readCov_store2 (v : View sig .tc .vmem S8x16 .f32)
    (inb : ∀ a, (![0, 0] : Fin 2 → ℕ) a + S8x16.size a ≤ S8x16.size a) (w : Vec F S8x16 .f32)
    (L : List (View.Piece (Elt F) S8x16 .f32)) :
    v.readCov ((⟨Rect.unit ![0, 0] S8x16.size inb, w⟩ : View.Piece (Elt F) S8x16 .f32) :: L) (Rect.unit ![0, 0] S8x16.size inb).toLoadRect = w :=
  readCov_store_whole (S := S8x16) v zeros2 inb w L

theorem readAt_block2 (a : Memref sig .tc .vmem S8x16 .f32) (ha : a.IsWhole) (X : Vec F S8x16 .f32)
    (inb : ∀ a, (![0, 0] : Fin 2 → ℕ) a + S8x16.size a ≤ S8x16.size a) :
    a.view.readAt (Elt F) (Rect.unit ![0, 0] S8x16.size inb).toLoadRect (ha.unread X) = X :=
  readAt_whole (S := S8x16) a ha X zeros2 inb

theorem readAt_block4 (a : Memref sig .tc .vmem S8x16x64x512 .f32) (ha : a.IsWhole) (X : Vec F S8x16x64x512 .f32)
    (inb : ∀ a, (![0, 0, 0, 0] : Fin 4 → ℕ) a + S8x16x64x512.size a ≤ S8x16x64x512.size a) :
    a.view.readAt (Elt F) (Rect.unit ![0, 0, 0, 0] S8x16x64x512.size inb).toLoadRect (ha.unread X) = X :=
  readAt_whole (S := S8x16x64x512) a ha X zeros4 inb

/-! ## The two branch conditions, from the grid point -/

/-- "This is the first row block of its batch block": the second grid coordinate is 0. -/
abbrev cond1 (i : grid0.Coords) : Prop := (Scalar.cmpi .ne (Scalar.extui (Scalar.cmpi .eq (BitVec.ofNat 32 (i 1).val) 0#32)) 0#32) = 1#1
/-- "This is the last row block": the second grid coordinate is 7. -/
abbrev cond2 (i : grid0.Coords) : Prop := k0_cond2 i = 1#1

/-! ## One point's update of the four running statistics

The body keeps four [8,16] accumulators: the running sum, sum of squares, maximum and minimum of the rows seen
so far. At a point it folds the block's row-and-lane reductions into them (the payloads below); at a batch
block's first point it first resets them to 0, 0, -inf, +inf; at its last point it also stores the mean, the
standard deviation, the maximum and the minimum into the four output blocks. -/

/-- The accumulators after a point, from the block `x` and the accumulators before it. -/
def stepSum (x : Vec F S8x16x64x512 .f32) (s : Vec F S8x16 .f32) : Vec F S8x16 .f32 := k0_pay9 x s
def stepSq (x : Vec F S8x16x64x512 .f32) (s : Vec F S8x16 .f32) : Vec F S8x16 .f32 := k0_pay10 x s
def stepMax (x : Vec F S8x16x64x512 .f32) (s : Vec F S8x16 .f32) : Vec F S8x16 .f32 := k0_pay11 x s
def stepMin (x : Vec F S8x16x64x512 .f32) (s : Vec F S8x16 .f32) : Vec F S8x16 .f32 := k0_pay1 (k0_pay8 x) s

end Cert.KernelIdeal.Hand

end
-- ==== Proof.IdealData.lean ====
import Idealize.ShloMosaic.Lib.Pipeline.Value
import proofs.«168508_j23227183136952_2_alg».proof.Proof.IdealSteps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region

@main is the region followed by one host operation, the concatenation of the region's four result arrays. Nothing
runs before the region, so the region finds every buffer at its launch contents. -/

/-- A core's buffer contents when the region is entered: the launch contents. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem V_arg0 (c : Dev nD) : V m c main_arg0 = m ((c : Thread nD τ).loc main_arg0) := rfl

/-- The concatenation allocates nothing. -/
theorem tailOps_fresh : (hostOps1 : List (HloOp τ sig (Elt F))).Forall fun op => op.fresh = ∅ := by
  simp only [List.Forall]; first | rfl | (repeat' constructor)

/-- @main is the region continued by the concatenation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The concatenation touches unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- allocates nothing, -/
theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp tailOps_fresh) op hop

/-- and writes only its own result buffer, which is none of the region's five arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  show Proc.devRef .tc (Pipeline.arrRef spec0 w) ∉ ({(main_v1 : DevRef τ sig)} : Finset (DevRef τ sig))
  rw [Finset.mem_singleton]
  fin_cases w <;> exact StableHlo.devRef_ne_of_ne (by decide)

/-! ## The input's blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, whether the point fetches it or the
    index has not moved since the last fetch. -/
theorem before_input {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid, and where the output windows are idle

Point t of the 32 is (batch block t / 8, row block t % 8). -/

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 = 7 :=
  (by decide +kernel : ∀ t : Fin grid0.N, cond2 (grid0.coords t) ↔ t.val % 8 = 7)

theorem live0 : ∀ t : Fin cfg0.N, cfg0.idle 0 (grid0.coords t) = false := by decide +kernel
theorem idle1 : ∀ t : Fin cfg0.N, ¬t.val % 8 = 7 → cfg0.idle 1 (grid0.coords t) = true ∧ (cfg0.win 1).flush t = false := by decide +kernel
theorem idle2 : ∀ t : Fin cfg0.N, ¬t.val % 8 = 7 → cfg0.idle 2 (grid0.coords t) = true ∧ (cfg0.win 2).flush t = false := by decide +kernel
theorem idle3 : ∀ t : Fin cfg0.N, ¬t.val % 8 = 7 → cfg0.idle 3 (grid0.coords t) = true ∧ (cfg0.win 3).flush t = false := by decide +kernel
theorem idle4 : ∀ t : Fin cfg0.N, ¬t.val % 8 = 7 → cfg0.idle 4 (grid0.coords t) = true ∧ (cfg0.win 4).flush t = false := by decide +kernel
theorem live1 : ∀ t : Fin cfg0.N, t.val % 8 = 7 → cfg0.idle 1 (grid0.coords t) = false := by decide +kernel
theorem live2 : ∀ t : Fin cfg0.N, t.val % 8 = 7 → cfg0.idle 2 (grid0.coords t) = false := by decide +kernel
theorem live3 : ∀ t : Fin cfg0.N, t.val % 8 = 7 → cfg0.idle 3 (grid0.coords t) = false := by decide +kernel
theorem live4 : ∀ t : Fin cfg0.N, t.val % 8 = 7 → cfg0.idle 4 (grid0.coords t) = false := by decide +kernel

/-! ## The memrefs the body is called with -/

abbrev ms0 (t : Fin cfg0.N) : Memref sig .tc .vmem S8x16x64x512 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S8x16 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S8x16 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S8x16 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S8x16 .f32 := win0_4.stage (cfg0.slots t 4)
abbrev hs4 (t : Fin cfg0.N) : (ms4 t).IsWhole := Facts₀.hstage0_4 ((cfg0.slots t 4).cast Facts₀.nbuf0_4)
/-- The four accumulators: whole scoped buffers of the kernel's own. -/
abbrev sc0 : Memref sig .tc .vmem S8x16 .f32 := Memref.whole cc0_scratch0
abbrev sc1 : Memref sig .tc .vmem S8x16 .f32 := Memref.whole cc0_scratch1
abbrev sc2 : Memref sig .tc .vmem S8x16 .f32 := Memref.whole cc0_scratch2
abbrev sc3 : Memref sig .tc .vmem S8x16 .f32 := Memref.whole cc0_scratch3

/-- What the launch hands the region, with the four accumulators as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The accumulators point by point -/

/-- The four accumulators (sum, sum of squares, maximum, minimum). -/
abbrev Acc (F : FTy → Type) [FloatOps F] : Type := Vec F S8x16 .f32 × Vec F S8x16 .f32 × Vec F S8x16 .f32 × Vec F S8x16 .f32

/-- Their values at the start of a batch block: 0, 0, -inf, +inf. -/
def accInit : Acc F := (k0_pay4, k0_pay5, k0_pay6, k0_pay7)

/-- One block folded in. -/
def accStep (x : Vec F S8x16x64x512 .f32) (a : Acc F) : Acc F :=
  (stepSum x a.1, stepSq x a.2.1, stepMax x a.2.2.1, stepMin x a.2.2.2)

/-- What the four output blocks receive at a batch block's last point: mean, standard deviation, maximum, minimum. -/
def accOut (a : Acc F) : Acc F := (k0_pay2 a.1, k0_pay3 a.2.1 a.1, a.2.2.1, a.2.2.2)

/-- The accumulators after the body at position `n`: the position's block folded into the start values at a batch
    block's first point, else into what the position before left. -/
def accAt (c : Dev nD) : (n : ℕ) → n < cfg0.N → Acc F
  | 0, hn => accStep (iblk m c 0 ⟨0, hn⟩) accInit
  | n + 1, hn => accStep (iblk m c 0 ⟨n + 1, hn⟩) (if (n + 1) % 8 = 0 then accInit else accAt c n (Nat.lt_of_succ_lt hn))

theorem accAt_first (c : Dev nD) (t : Fin cfg0.N) (h : t.val % 8 = 0) :
    accAt m c t.val t.isLt = accStep (iblk m c 0 t) accInit := by
  obtain ⟨n, hn⟩ := t
  cases n with
  | zero => rfl
  | succ n => exact congrArg (accStep _) (if_pos h)

theorem accAt_next (c : Dev nD) (t : Fin cfg0.N) (h : ¬t.val % 8 = 0) :
    accAt m c t.val t.isLt = accStep (iblk m c 0 t) (accAt m c (t.val - 1) (Nat.lt_of_le_of_lt (Nat.sub_le _ _) t.isLt)) := by
  obtain ⟨n, hn⟩ := t
  cases n with
  | zero => exact absurd (Nat.zero_mod _) h
  | succ n => exact congrArg (accStep _) (if_neg h)

/-- The region's invariant before position `n`: before the first point what the launch hands over (the accumulators
    at anything); afterwards the accumulators at what the position before left, and the generator register at some
    state. -/
def PhiS (c : Dev nD) : (n : ℕ) → n ≤ cfg0.N → sProp 𝕄
  | 0, _ => Pipeline.ΦA spec0 c
  | n + 1, hn => iprop(iprop(owns (c : Thread nD τ) sc0 fullShare (accAt m c n hn).1 ∗ owns (c : Thread nD τ) sc1 fullShare (accAt m c n hn).2.1 ∗ owns (c : Thread nD τ) sc2 fullShare (accAt m c n hn).2.2.1 ∗ owns (c : Thread nD τ) sc3 fullShare (accAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (accAt m c n hn).1 ∗ owns (c : Thread nD τ) sc1 fullShare (accAt m c n hn).2.1 ∗ owns (c : Thread nD τ) sc2 fullShare (accAt m c n hn).2.2.1 ∗ owns (c : Thread nD τ) sc3 fullShare (accAt m c n hn).2.2.2) ∗ (∃ r, prngReg c r)) := rfl

theorem PhiS_pos (c : Dev nD) (n : ℕ) (h : n ≤ cfg0.N) (hz : n ≠ 0) :
    PhiS m c n h = iprop(iprop(owns (c : Thread nD τ) sc0 fullShare (accAt m c (n - 1) (by omega)).1 ∗ owns (c : Thread nD τ) sc1 fullShare (accAt m c (n - 1) (by omega)).2.1 ∗ owns (c : Thread nD τ) sc2 fullShare (accAt m c (n - 1) (by omega)).2.2.1 ∗ owns (c : Thread nD τ) sc3 fullShare (accAt m c (n - 1) (by omega)).2.2.2) ∗ (∃ r, prngReg c r)) := by
  cases n with
  | zero => exact absurd rfl hz
  | succ n => rfl

/-! ## The proof data -/

/-- After the body at point `t`: the input's buffer at its block; the four output buffers at the statistics of the
    accumulators there (consulted only at a batch block's last point, where they are stored and written back). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (accOut (accAt m c t.val t.isLt)).1
    | ⟨2, _⟩ => (accOut (accAt m c t.val t.isLt)).2.1
    | ⟨3, _⟩ => (accOut (accAt m c t.val t.isLt)).2.2.1
    | ⟨4, _⟩ => (accOut (accAt m c t.val t.isLt)).2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = (accOut (accAt m c t.val t.isLt)).1 := by dsimp only [dats]
theorem after_2 (c : Dev nD) (t : Fin cfg0.N) : (dats m 0 c).after 2 t = (accOut (accAt m c t.val t.isLt)).2.1 := by dsimp only [dats]
theorem after_3 (c : Dev nD) (t : Fin cfg0.N) : (dats m 0 c).after 3 t = (accOut (accAt m c t.val t.isLt)).2.2.1 := by dsimp only [dats]
theorem after_4 (c : Dev nD) (t : Fin cfg0.N) : (dats m 0 c).after 4 t = (accOut (accAt m c t.val t.isLt)).2.2.2 := by dsimp only [dats]

theorem before_0 (c : Dev nD) (t : Fin cfg0.N) (d) : (dats m 0 c).before 0 t d = iblk m c 0 t :=
  before_input m (dats m 0 c) (A_eq m c 0) (after_0 m c) t d

end Cert.KernelIdeal.Hand

end
-- ==== Proof.IdealRunFirst.lean ====
import Idealize.ShloMosaic.Lib.Pipeline.Value
import proofs.«168508_j23227183136952_2_alg».proof.Proof.IdealSteps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

set_option maxHeartbeats 1000000 in
/-- The body at a batch block's first point (the reset taken, the output stores not): whatever the four accumulators
    held, they end at the block folded into 0, 0, -inf, +inf; the input and the four output buffers are as they were. -/
theorem runFirst (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hc1 : cond1 i) (hc2 : ¬cond2 i)
    (x0 : Vec F S8x16x64x512 .f32) (y1 y2 y3 y4 s0 s1 s2 s3 : Vec F S8x16 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare s0 ∗ owns (c : Thread nD τ) arg8 fullShare s1 ∗ owns (c : Thread nD τ) arg9 fullShare s2 ∗ owns (c : Thread nD τ) arg10 fullShare s3
        ∗ (iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare (stepSum x0 k0_pay4) ∗ owns (c : Thread nD τ) arg8 fullShare (stepSq x0 k0_pay5) ∗ owns (c : Thread nD τ) arg9 fullShare (stepMax x0 k0_pay6) ∗ owns (c : Thread nD τ) arg10 fullShare (stepMin x0 k0_pay7)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro; unfold stepSum; rewrite [read_store2]; rewrite [readAt_block4]; sl_unfold_run_names; rewrite [readCov_store2]; rfl
  isplitl [H8]
  · iexists _; isplitr
    swap; · iexact H8
    ipureintro; unfold stepSq; rewrite [read_store2]; rewrite [readAt_block4]; sl_unfold_run_names; rewrite [readCov_store2]; rfl
  isplitl [H9]
  · iexists _; isplitr
    swap; · iexact H9
    ipureintro; unfold stepMax; rewrite [read_store2]; rewrite [readAt_block4]; sl_unfold_run_names; rewrite [readCov_store2]; rfl
  iexists _; isplitr
  swap; · iexact H10
  ipureintro; unfold stepMin; rewrite [read_store2]; rewrite [readAt_block4]; sl_unfold_run_names; rewrite [readCov_store2]; rfl

end Cert.KernelIdeal.Hand

end
-- ==== Proof.IdealRunMid.lean ====
import Idealize.ShloMosaic.Lib.Pipeline.Value
import proofs.«168508_j23227183136952_2_alg».proof.Proof.IdealSteps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

set_option maxHeartbeats 1000000 in
/-- The body at a middle point (neither branch taken): the block is folded into the accumulators; the input and the
    four output buffers are as they were. -/
theorem runMid (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hc1 : ¬cond1 i) (hc2 : ¬cond2 i)
    (x0 : Vec F S8x16x64x512 .f32) (y1 y2 y3 y4 s0 s1 s2 s3 : Vec F S8x16 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare s0 ∗ owns (c : Thread nD τ) arg8 fullShare s1 ∗ owns (c : Thread nD τ) arg9 fullShare s2 ∗ owns (c : Thread nD τ) arg10 fullShare s3
        ∗ (iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare (stepSum x0 s0) ∗ owns (c : Thread nD τ) arg8 fullShare (stepSq x0 s1) ∗ owns (c : Thread nD τ) arg9 fullShare (stepMax x0 s2) ∗ owns (c : Thread nD τ) arg10 fullShare (stepMin x0 s3)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro; unfold stepSum; rewrite [read_store2]; rewrite [readAt_block4]; rewrite [readAt_block2]; rfl
  isplitl [H8]
  · iexists _; isplitr
    swap; · iexact H8
    ipureintro; unfold stepSq; rewrite [read_store2]; rewrite [readAt_block4]; rewrite [readAt_block2]; rfl
  isplitl [H9]
  · iexists _; isplitr
    swap; · iexact H9
    ipureintro; unfold stepMax; rewrite [read_store2]; rewrite [readAt_block4]; rewrite [readAt_block2]; rfl
  iexists _; isplitr
  swap; · iexact H10
  ipureintro; unfold stepMin; rewrite [read_store2]; rewrite [readAt_block4]; rewrite [readAt_block2]; rfl

end Cert.KernelIdeal.Hand

end
-- ==== Proof.IdealRunLast.lean ====
import Idealize.ShloMosaic.Lib.Pipeline.Value
import proofs.«168508_j23227183136952_2_alg».proof.Proof.IdealSteps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

set_option maxHeartbeats 1000000 in
/-- The body at a batch block's last point (no reset, the output stores taken): the block is folded into the
    accumulators, and the four output buffers receive the mean, the standard deviation, the maximum and the minimum
    computed from the accumulators just updated. -/
theorem runLast (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hc1 : ¬cond1 i) (hc2 : cond2 i)
    (x0 : Vec F S8x16x64x512 .f32) (y1 y2 y3 y4 s0 s1 s2 s3 : Vec F S8x16 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare s0 ∗ owns (c : Thread nD τ) arg8 fullShare s1 ∗ owns (c : Thread nD τ) arg9 fullShare s2 ∗ owns (c : Thread nD τ) arg10 fullShare s3
        ∗ (iprop(owns (c : Thread nD τ) arg2 fullShare x0 ∗ owns (c : Thread nD τ) arg3 fullShare (k0_pay2 (stepSum x0 s0)) ∗ owns (c : Thread nD τ) arg4 fullShare (k0_pay3 (stepSq x0 s1) (stepSum x0 s0)) ∗ owns (c : Thread nD τ) arg5 fullShare (stepMax x0 s2) ∗ owns (c : Thread nD τ) arg6 fullShare (stepMin x0 s3) ∗ owns (c : Thread nD τ) arg7 fullShare (stepSum x0 s0) ∗ owns (c : Thread nD τ) arg8 fullShare (stepSq x0 s1) ∗ owns (c : Thread nD τ) arg9 fullShare (stepMax x0 s2) ∗ owns (c : Thread nD τ) arg10 fullShare (stepMin x0 s3)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]
  · iexists _; isplitr
    · ipureintro; exact harg2.read_unread _
    iexact H2
  isplitl [H3]
  · iexists _; isplitr
    swap; · iexact H3
    ipureintro; unfold stepSum; rewrite [read_store2]; sl_unfold_run_names; rewrite [readCov_store2]; rewrite [readAt_block4]; rewrite [readAt_block2]; rfl
  isplitl [H4]
  · iexists _; isplitr
    swap; · iexact H4
    ipureintro; unfold stepSq stepSum; rewrite [read_store2]; sl_unfold_run_names; rewrite [readCov_store2]; rewrite [readCov_store2]; rewrite [readAt_block4]; rewrite [readAt_block2]; rewrite [readAt_block2]; rfl
  isplitl [H5]
  · iexists _; isplitr
    swap; · iexact H5
    ipureintro; unfold stepMax; rewrite [read_store2]; sl_unfold_run_names; rewrite [readCov_store2]; rewrite [readAt_block4]; rewrite [readAt_block2]; rfl
  isplitl [H6]
  · iexists _; isplitr
    swap; · iexact H6
    ipureintro; unfold stepMin; rewrite [read_store2]; sl_unfold_run_names; rewrite [readCov_store2]; rewrite [readAt_block4]; rewrite [readAt_block2]; rfl
  isplitl [H7]
  · iexists _; isplitr
    swap; · iexact H7
    ipureintro; unfold stepSum; sl_unfold_run_names; rewrite [read_store2]; rewrite [readAt_block4]; rewrite [readAt_block2]; rfl
  isplitl [H8]
  · iexists _; isplitr
    swap; · iexact H8
    ipureintro; unfold stepSq; sl_unfold_run_names; rewrite [read_store2]; rewrite [readAt_block4]; rewrite [readAt_block2]; rfl
  isplitl [H9]
  · iexists _; isplitr
    swap; · iexact H9
    ipureintro; unfold stepMax; sl_unfold_run_names; rewrite [read_store2]; rewrite [readAt_block4]; rewrite [readAt_block2]; rfl
  iexists _; isplitr
  swap; · iexact H10
  ipureintro; unfold stepMin; sl_unfold_run_names; rewrite [read_store2]; rewrite [readAt_block4]; rewrite [readAt_block2]; rfl

end Cert.KernelIdeal.Hand

end
-- ==== Proof.IdealFrame.lean ====
import Idealize.ShloMosaic.Lib.Pipeline.Value
import proofs.«168508_j23227183136952_2_alg».proof.Proof.IdealData
import proofs.«168508_j23227183136952_2_alg».proof.Proof.IdealRunFirst
import proofs.«168508_j23227183136952_2_alg».proof.Proof.IdealRunMid
import proofs.«168508_j23227183136952_2_alg».proof.Proof.IdealRunLast
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation

At point t the body is handed the invariant (the accumulators at what the point before left, or at anything before
the first point), the input buffer at its block and each output buffer at what it held; it returns the invariant at
the accumulators with the block folded in, the input buffer untouched, and the output buffers untouched (at the
points that do not store them, where the windows are idle) or at the four statistics (at a batch block's last
point). Which of the three cases applies is read off t mod 8. -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  have hN : t.val < 32 := lt_of_lt_of_eq t.isLt (show cfg0.N = 32 from N_0)
  by_cases h7 : t.val % 8 = 7
  · -- a batch block's last point
    have h0 : ¬t.val % 8 = 0 := by omega
    have hz : t.val ≠ 0 := by omega
    rw [show (dats m 0 c).leavesExact 1 t = owns (c : Thread nD τ) (ms1 t) fullShare ((dats m 0 c).after 1 t) from by
      unfold Dat.leavesExact; rw [live1 t h7], after_1]
    rw [show (dats m 0 c).leavesExact 2 t = owns (c : Thread nD τ) (ms2 t) fullShare ((dats m 0 c).after 2 t) from by
      unfold Dat.leavesExact; rw [live2 t h7], after_2]
    rw [show (dats m 0 c).leavesExact 3 t = owns (c : Thread nD τ) (ms3 t) fullShare ((dats m 0 c).after 3 t) from by
      unfold Dat.leavesExact; rw [live3 t h7], after_3]
    rw [show (dats m 0 c).leavesExact 4 t = owns (c : Thread nD τ) (ms4 t) fullShare ((dats m 0 c).after 4 t) from by
      unfold Dat.leavesExact; rw [live4 t h7], after_4]
    rw [accAt_next m c t h0]
    unfold accOut accStep; dsimp only
    rw [Phi_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply (runLast c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((hcond1 t).mp h)) ((hcond2 t).mpr h7) (iblk m c 0 t) _ _ _ _ _ _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  · by_cases h0 : t.val % 8 = 0
    · -- a batch block's first point
      rw [Dat.leavesExact_idle (dats m 0 c) 1 t (idle1 t h7).1 (idle1 t h7).2, Dat.leavesExact_idle (dats m 0 c) 2 t (idle2 t h7).1 (idle2 t h7).2,
        Dat.leavesExact_idle (dats m 0 c) 3 t (idle3 t h7).1 (idle3 t h7).2, Dat.leavesExact_idle (dats m 0 c) 4 t (idle4 t h7).1 (idle4 t h7).2]
      rw [accAt_first m c t h0]
      unfold accStep accInit; dsimp only
      by_cases hz : t.val = 0
      · rw [Phi_castSucc m c t, PhiS_zero m c _ _ hz, PhiA_eq]
        iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩⟩
        iapply (runFirst c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) ((hcond1 t).mpr h0) (fun h => h7 ((hcond2 t).mp h)) (iblk m c 0 t) _ _ _ _ _ _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexists _; iexact H1
        isplitl [H2]; · iexists _; iexact H2
        isplitl [H3]; · iexists _; iexact H3
        iexists _; iexact H4
      · rw [Phi_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply (runFirst c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) ((hcond1 t).mpr h0) (fun h => h7 ((hcond2 t).mp h)) (iblk m c 0 t) _ _ _ _ _ _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexists _; iexact H1
        isplitl [H2]; · iexists _; iexact H2
        isplitl [H3]; · iexists _; iexact H3
        iexists _; iexact H4
    · -- a middle point
      have hz : t.val ≠ 0 := fun e => h0 (by rw [e])
      rw [Dat.leavesExact_idle (dats m 0 c) 1 t (idle1 t h7).1 (idle1 t h7).2, Dat.leavesExact_idle (dats m 0 c) 2 t (idle2 t h7).1 (idle2 t h7).2,
        Dat.leavesExact_idle (dats m 0 c) 3 t (idle3 t h7).1 (idle3 t h7).2, Dat.leavesExact_idle (dats m 0 c) 4 t (idle4 t h7).1 (idle4 t h7).2]
      rw [accAt_next m c t h0]
      unfold accStep; dsimp only
      rw [Phi_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (runMid c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((hcond1 t).mp h)) (fun h => h7 ((hcond2 t).mp h)) (iblk m c 0 t) _ _ _ _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexists _; iexact H1
      isplitl [H2]; · iexists _; iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every weakly fair execution of @main terminates; afterwards each of the region's five arrays holds what the
    write-backs left in it, and the result buffer what the concatenation makes of them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- The frame: the program runs to the end and its argument array is unchanged (an input window's array is never
    written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_arg0 m c)))) (run_main m ρ)

end Cert.KernelIdeal.Hand

end
-- ==== Proof.IdealTail.lean ====
/-
  The last operation of the program: the four [32, 16] result arrays joined along the channel axis.

  After the region the program runs one more operation, the concatenation of the region's four output arrays along
  axis 1 into a [32, 64] array, written to a buffer of its own. That buffer is none of the region's arrays, so it is
  among the buffers the region leaves alone; and what the concatenation writes there is the concatenation of what the
  four arrays hold once every block has been written back.
-/
import proofs.«168508_j23227183136952_2_alg».proof.Proof.IdealData
import Idealize.ShloMosaic.Lib.Pipeline.FrameSuffix
import Idealize.ShloMosaic.Lib.StableHlo.Run

set_option maxRecDepth 16384

noncomputable section

namespace Cert.KernelIdeal.KTail

open Idealize.ShloMosaic Idealize.ShloMosaic.TcCoe
open Idealize.SL Idealize.SL.Sem
open Idealize.ShloMosaic.Pipeline (Dat Cfg)
open Cert.KernelIdeal Cert.KernelIdeal.Gen Cert.KernelIdeal.Facts₀ Cert.KernelIdeal.Hand

variable {F : FTy → Type} [FloatOps F]

variable (m : (ℓ : Loc nD τ sig) → Buf (Elt F) ℓ)

/-- The concatenation's result buffer is no window's array. -/
theorem v1_rest : main_v1 ∈ Pipeline.restRefs sig spec0 := by decide

/-- After the region, each output window's array holds what the region's write-backs left there. -/
theorem arr_after (c : Dev nD) (w : Fin cfg0.W) :
    Pipeline.withArrays (cfgs 0).spec c (V0 m c) (fun w => (dats m 0 c).arrAt w (cfgs 0).N)
        (Proc.devRef .tc (Pipeline.arrRef spec0 w))
      = (dats m 0 c).arrAt w cfg0.N :=
  Pipeline.withArrays_arr spec0 launch0.win.arr_inj c _ _ w

/-- What the program's result buffer holds at the end: the four arrays' final contents, joined along axis 1. -/
theorem tail_result (c : Dev nD) :
    Pipeline.afterTail₀ cfgs (dats m) 0 (V0 m) [hostOps1] c main_v1
      = concatenate S32x64 1 [⟨S32x16, (dats m 0 c).arrAt 1 cfg0.N⟩, ⟨S32x16, (dats m 0 c).arrAt 2 cfg0.N⟩,
          ⟨S32x16, (dats m 0 c).arrAt 3 cfg0.N⟩, ⟨S32x16, (dats m 0 c).arrAt 4 cfg0.N⟩]
          Facts₀.concatenates_S32x16_S32x16_S32x16_S32x16_S32x64_d1 := by
  unfold Pipeline.afterTail₀
  show StableHlo.after hostOps1 _ (Proc.devRef .tc main_v1) = _
  after_results
  -- the four operands are the arrays of windows 1 to 4
  have e1 := arr_after m c 1
  have e2 := arr_after m c 2
  have e3 := arr_after m c 3
  have e4 := arr_after m c 4
  show concatenate S32x64 1
      [⟨S32x16, Pipeline.withArrays (cfgs 0).spec c (V0 m c) (fun w => (dats m 0 c).arrAt w (cfgs 0).N)
          (Proc.devRef .tc (Pipeline.arrRef spec0 1))⟩,
       ⟨S32x16, Pipeline.withArrays (cfgs 0).spec c (V0 m c) (fun w => (dats m 0 c).arrAt w (cfgs 0).N)
          (Proc.devRef .tc (Pipeline.arrRef spec0 2))⟩,
       ⟨S32x16, Pipeline.withArrays (cfgs 0).spec c (V0 m c) (fun w => (dats m 0 c).arrAt w (cfgs 0).N)
          (Proc.devRef .tc (Pipeline.arrRef spec0 3))⟩,
       ⟨S32x16, Pipeline.withArrays (cfgs 0).spec c (V0 m c) (fun w => (dats m 0 c).arrAt w (cfgs 0).N)
          (Proc.devRef .tc (Pipeline.arrRef spec0 4))⟩]
      Facts₀.concatenates_S32x16_S32x16_S32x16_S32x16_S32x64_d1 = _
  rw [e1, e2, e3, e4]

end Cert.KernelIdeal.KTail

end
-- ==== Proof.Spec.lean ====
/-
  The statistics both programs compute, per (batch, channel) pair of a [32, 16, 512, 512] array of extended reals,
  stated once and index by index: the total and the total of squares over the 512 x 512 plane, its supremum and its
  infimum; from them the mean (total / n, n = 262144 = 512 * 512), and the unbiased standard deviation in the two
  forms the programs spell:
    * the moment form   sqrt (max ((sum x^2 - (sum x)^2 / n) / (n - 1)) 0),
    * the centred form  sqrt ((sum (x - mean)^2) / (n - 1)).
  On finite entries the two agree (sum (x - mean)^2 = sum x^2 - (sum x)^2 / n is nonnegative, so the clamp at 0 is
  the identity); that law is proved apart. The divisions are the float division read at the extended reals
  (Ideal.div), the constants the values their f32 words denote.
-/
import Idealize.ShloMosaic.PureOps.Ideal
import Idealize.ShloMosaic.Lib.ValueIdx

noncomputable section

namespace Cert.Stats

open Idealize.ShloMosaic Idealize.ShloMosaic.ValueIdx
open scoped BigOperators

/-- The argument array's shape and the shape of each of the four statistics. -/
abbrev A4 : Shape := ⟨4, ![32, 16, 512, 512]⟩
abbrev A2 : Shape := ⟨2, ![32, 16]⟩

/-- The f32 word of 262144.0 = 512 * 512 denotes that real. -/
def nW : EReal := Ideal.ofBits .f32 0x48800000#32
/-- The f32 word of 262143.0 denotes that real. -/
def n1W : EReal := Ideal.ofBits .f32 0x487FFFC0#32

theorem nW_eq : nW = ((262144 : ℝ) : EReal) := by
  simp [nW, Ideal.ofBits, Ideal.ieee, -EReal.coe_mul]; norm_num

theorem n1W_eq : n1W = ((262143 : ℝ) : EReal) := by
  simp [n1W, Ideal.ofBits, Ideal.ieee, -EReal.coe_mul]; norm_num

/-- The f32 zero word denotes 0; the two infinity words denote the order's top and bottom. -/
theorem zeroW_eq : Ideal.ofBits .f32 0x00000000#32 = (0 : EReal) := by
  simp [Ideal.ofBits, Ideal.ieee]
theorem posInfW_eq : Ideal.ofBits .f32 0x7F800000#32 = (⊤ : EReal) := by
  simp [Ideal.ofBits, Ideal.ieee]
theorem negInfW_eq : Ideal.ofBits .f32 0xFF800000#32 = (⊥ : EReal) := by
  simp [Ideal.ofBits, Ideal.ieee]

variable (X : A4.Idx → EReal) (b : Fin 32) (ch : Fin 16)

/-- The plane's total. -/
def tot : EReal := ∑ i : Fin 512, ∑ j : Fin 512, X (ix4 b ch i j)
/-- The plane's total of squares. -/
def totsq : EReal := ∑ i : Fin 512, ∑ j : Fin 512, X (ix4 b ch i j) * X (ix4 b ch i j)
/-- The plane's supremum and infimum. -/
def hi : EReal := ⨆ i : Fin 512, ⨆ j : Fin 512, X (ix4 b ch i j)
def lo : EReal := ⨅ i : Fin 512, ⨅ j : Fin 512, X (ix4 b ch i j)

/-- The mean: the total over n. -/
def mean : EReal := Ideal.div (tot X b ch) nW

/-- The standard deviation, moment form: the variance from the two totals, clamped at 0 before the root. -/
def stdMoment : EReal :=
  Ideal.sqrt (max (Ideal.div (totsq X b ch - Ideal.div (tot X b ch * tot X b ch) nW) n1W) 0)

/-- The standard deviation, centred form: the squared deviations from the mean summed, over n - 1. -/
def stdCentred : EReal :=
  Ideal.sqrt (Ideal.div (∑ i : Fin 512, ∑ j : Fin 512,
    (X (ix4 b ch i j) - mean X b ch) * (X (ix4 b ch i j) - mean X b ch)) (nW - ((1 : ℝ) : EReal)))

/-! ## The four statistics as whole arrays, and the result both programs return -/

/-- The result's shape: the four [32, 16] statistics side by side along the channel axis. -/
abbrev A2x4 : Shape := ⟨2, ![32, 64]⟩

/-- Each statistic as a [32, 16] array. -/
def meanA : A2.Idx → EReal := fun j => mean X (j 0) (j 1)
def stdMomentA : A2.Idx → EReal := fun j => stdMoment X (j 0) (j 1)
def stdCentredA : A2.Idx → EReal := fun j => stdCentred X (j 0) (j 1)
def hiA : A2.Idx → EReal := fun j => hi X (j 0) (j 1)
def loA : A2.Idx → EReal := fun j => lo X (j 0) (j 1)

/-- Four [32, 16] arrays joined along axis 1 into [32, 64]: the shape of both programs' last operation. -/
def packed (h : Shape.Concatenates [A2, A2, A2, A2] A2x4 1) (u0 u1 u2 u3 : A2.Idx → EReal) : A2x4.Idx → EReal :=
  concatenate A2x4 1 [⟨A2, u0⟩, ⟨A2, u1⟩, ⟨A2, u2⟩, ⟨A2, u3⟩] h

end Cert.Stats

end
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«168508_j23227183136952_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.IdealPayload.lean ====
/-
  The kernel body's pure values, read at one index of the [8, 16] block of (batch, channel) pairs, on the extended
  reals.

  Each step of the kernel takes a [8, 16, 64, 512] tile x and updates four [8, 16] running statistics: the running sum
  gains the tile's sum over its last two axes, the running sum of squares the sum of the squares, the running maximum is
  joined with the tile's supremum over those axes, the running minimum met with its infimum. A reduction over the last
  axis and then over the third is, at (p, q), the double sum (supremum, infimum) over (r, l) of the tile at
  (p, q, r, l): the index inserted on a reduced axis has the coordinates one expects. The initial values are the zero
  word (0), the -infinity word (the order's bottom) and the +infinity word (its top); the final values are the mean
  (sum over n) and the moment form of the standard deviation.
-/
import proofs.«168508_j23227183136952_2_alg».proof.Proof.Gen.KernelIdeal.Skeleton
import proofs.«168508_j23227183136952_2_alg».proof.Proof.Spec
import proofs.«168508_j23227183136952_2_alg».proof.Proof.LibExtremeReduce
import Idealize.ShloMosaic.Lib.ValueIdx
import Idealize.ShloMosaic.PureOps.Ideal.Laws
import Idealize.ShloMosaic.Lib.Pipeline.Value

noncomputable section

namespace Cert.KernelIdeal.PayloadValue

open Cert.KernelIdeal Cert.KernelIdeal.Gen Idealize.ShloMosaic Idealize.ShloMosaic.ValueIdx
open scoped BigOperators

/-! ## The index inserted on a reduced axis -/

/-- Over (p, q, r), the index with coordinate l inserted on the last axis is (p, q, r, l). -/
theorem lift_last (h : S8x16x64x512.Reduces [3] S8x16x64) (p : Fin 8) (q : Fin 16) (r : Fin 64) (l : Fin 512) :
    h.lift (ix3 p q r) l = ix4 p q r l := by
  funext c
  match c with
  | ⟨0, _⟩ => exact Fin.ext rfl
  | ⟨1, _⟩ => exact Fin.ext rfl
  | ⟨2, _⟩ => exact Fin.ext rfl
  | ⟨3, _⟩ => exact Fin.ext rfl

/-- Over (p, q), the index with coordinate r inserted on the third axis is (p, q, r). -/
theorem lift_third (h : S8x16x64.Reduces [2] S8x16) (p : Fin 8) (q : Fin 16) (r : Fin 64) :
    h.lift (ix2 p q) r = ix3 p q r := by
  funext c
  match c with
  | ⟨0, _⟩ => exact Fin.ext rfl
  | ⟨1, _⟩ => exact Fin.ext rfl
  | ⟨2, _⟩ => exact Fin.ext rfl

/-! ## The two-axis reductions at an index -/

/-- The sum over the last axis, then over the third, at (p, q): the double sum over (r, l). -/
theorem sum_two (src : FVec Ideal S8x16x64x512 .f32)
    (h3 : S8x16x64x512.Reduces [3] S8x16x64) (h2 : S8x16x64.Reduces [2] S8x16) (hφ : FKind.Formats .f32)
    (hacc : (0x00000000#32 : BitVec 32) = FKind.add.neutral .f32 hφ) (p : Fin 8) (q : Fin 16) :
    multiReduction .add [2] S8x16 (multiReduction .add [3] S8x16x64 src 0x00000000#32 h3 hφ hacc) 0x00000000#32 h2 hφ hacc
        (ix2 p q)
      = ∑ r : Fin 64, ∑ l : Fin 512, src (ix4 p q r l) := by
  have inner : ∀ r : Fin 64, multiReduction .add [3] S8x16x64 src 0x00000000#32 h3 hφ hacc (ix3 p q r)
      = ∑ l : Fin 512, src (ix4 p q r l) := fun r =>
    (Ideal.multiReduction_add_single src _ h3 hφ hacc _).trans
      (Finset.sum_congr rfl fun l _ => congrArg src (lift_last h3 p q r l))
  refine (Ideal.multiReduction_add_single _ _ h2 hφ hacc _).trans ?_
  exact Finset.sum_congr rfl fun r _ =>
    (congrArg (multiReduction .add [3] S8x16x64 src 0x00000000#32 h3 hφ hacc) (lift_third h2 p q r)).trans (inner r)

/-- The maximum from the -infinity word over the last axis, then over the third, at (p, q): the supremum over (r, l). -/
theorem sup_two (src : FVec Ideal S8x16x64x512 .f32)
    (h3 : S8x16x64x512.Reduces [3] S8x16x64) (h2 : S8x16x64.Reduces [2] S8x16) (hφ : FKind.Formats .f32)
    (hacc : (0xFF800000#32 : BitVec 32) = FKind.maximumf.neutral .f32 hφ) (p : Fin 8) (q : Fin 16) :
    multiReduction .maximumf [2] S8x16 (multiReduction .maximumf [3] S8x16x64 src 0xFF800000#32 h3 hφ hacc)
        0xFF800000#32 h2 hφ hacc (ix2 p q)
      = ⨆ r : Fin 64, ⨆ l : Fin 512, src (ix4 p q r l) := by
  have inner : ∀ r : Fin 64, multiReduction .maximumf [3] S8x16x64 src 0xFF800000#32 h3 hφ hacc (ix3 p q r)
      = ⨆ l : Fin 512, src (ix4 p q r l) := fun r =>
    (ExtremeReduce.multiReduction_max_single src h3 hφ hacc _).trans
      (iSup_congr fun l => congrArg src (lift_last h3 p q r l))
  refine (ExtremeReduce.multiReduction_max_single _ h2 hφ hacc _).trans ?_
  exact iSup_congr fun r =>
    (congrArg (multiReduction .maximumf [3] S8x16x64 src 0xFF800000#32 h3 hφ hacc) (lift_third h2 p q r)).trans (inner r)

/-- The minimum from the +infinity word over the last axis, then over the third, at (p, q): the infimum over (r, l). -/
theorem inf_two (src : FVec Ideal S8x16x64x512 .f32)
    (h3 : S8x16x64x512.Reduces [3] S8x16x64) (h2 : S8x16x64.Reduces [2] S8x16) (hφ : FKind.Formats .f32)
    (hacc : (0x7F800000#32 : BitVec 32) = FKind.minimumf.neutral .f32 hφ) (p : Fin 8) (q : Fin 16) :
    multiReduction .minimumf [2] S8x16 (multiReduction .minimumf [3] S8x16x64 src 0x7F800000#32 h3 hφ hacc)
        0x7F800000#32 h2 hφ hacc (ix2 p q)
      = ⨅ r : Fin 64, ⨅ l : Fin 512, src (ix4 p q r l) := by
  have inner : ∀ r : Fin 64, multiReduction .minimumf [3] S8x16x64 src 0x7F800000#32 h3 hφ hacc (ix3 p q r)
      = ⨅ l : Fin 512, src (ix4 p q r l) := fun r =>
    (ExtremeReduce.multiReduction_min_single src h3 hφ hacc _).trans
      (iInf_congr fun l => congrArg src (lift_last h3 p q r l))
  refine (ExtremeReduce.multiReduction_min_single _ h2 hφ hacc _).trans ?_
  exact iInf_congr fun r =>
    (congrArg (multiReduction .minimumf [3] S8x16x64 src 0x7F800000#32 h3 hφ hacc) (lift_third h2 p q r)).trans (inner r)

/-! ## The payloads -/

variable (x : Vec Ideal S8x16x64x512 .f32) (s s' : Vec Ideal S8x16 .f32) (p : Fin 8) (q : Fin 16)

/-- The running sum gains the tile's sum. -/
theorem pay9_apply :
    k0_pay9 (F := Ideal) x s (ix2 p q) = s (ix2 p q) + ∑ r : Fin 64, ∑ l : Fin 512, x (ix4 p q r l) := by
  unfold k0_pay9
  dsimp only
  rw [shapeCast_self, addf_apply]
  congr 1
  exact sum_two x _ _ _ _ p q

/-- The running sum of squares gains the sum of the tile's squares. -/
theorem pay10_apply :
    k0_pay10 (F := Ideal) x s (ix2 p q)
      = s (ix2 p q) + ∑ r : Fin 64, ∑ l : Fin 512, x (ix4 p q r l) * x (ix4 p q r l) := by
  unfold k0_pay10
  dsimp only
  rw [shapeCast_self, addf_apply]
  congr 1
  exact sum_two (mulf x x) _ _ _ _ p q

/-- The running maximum is joined with the tile's supremum. -/
theorem pay11_apply :
    k0_pay11 (F := Ideal) x s (ix2 p q) = max (s (ix2 p q)) (⨆ r : Fin 64, ⨆ l : Fin 512, x (ix4 p q r l)) := by
  unfold k0_pay11
  dsimp only
  rw [shapeCast_self, maximumf_apply]
  congr 1
  exact sup_two x _ _ _ _ p q

/-- The running minimum is met with the tile's infimum. -/
theorem pay1_8_apply :
    k0_pay1 (F := Ideal) (k0_pay8 x) s (ix2 p q) = min (s (ix2 p q)) (⨅ r : Fin 64, ⨅ l : Fin 512, x (ix4 p q r l)) := by
  unfold k0_pay1 k0_pay8
  dsimp only
  rw [shapeCast_self, minimumf_apply]
  congr 1
  exact inf_two x _ _ _ _ p q

/-- The initial values: 0 for the two sums, the bottom for the maximum, the top for the minimum. -/
theorem pay4_apply : k0_pay4 (F := Ideal) (ix2 p q) = 0 := by
  unfold k0_pay4
  rw [shapeCast_self, broadcast_apply]
  exact Cert.Stats.zeroW_eq

theorem pay5_apply : k0_pay5 (F := Ideal) (ix2 p q) = 0 := by
  unfold k0_pay5
  rw [shapeCast_self, broadcast_apply]
  exact Cert.Stats.zeroW_eq

theorem pay6_apply : k0_pay6 (F := Ideal) (ix2 p q) = ⊥ := by
  unfold k0_pay6
  rw [shapeCast_self, broadcast_apply]
  exact Cert.Stats.negInfW_eq

theorem pay7_apply : k0_pay7 (F := Ideal) (ix2 p q) = ⊤ := by
  unfold k0_pay7
  rw [shapeCast_self, broadcast_apply]
  exact Cert.Stats.posInfW_eq

/-- The mean: the sum over n. -/
theorem pay2_apply : k0_pay2 (F := Ideal) s (ix2 p q) = Ideal.div (s (ix2 p q)) Cert.Stats.nW := by
  unfold k0_pay2
  rw [divf_apply, broadcast_apply]
  rfl

/-- The standard deviation, moment form, from the sum of squares s' and the sum s. -/
theorem pay3_apply :
    k0_pay3 (F := Ideal) s' s (ix2 p q)
      = Ideal.sqrt (max (Ideal.div (s' (ix2 p q) - Ideal.div (s (ix2 p q) * s (ix2 p q)) Cert.Stats.nW)
          Cert.Stats.n1W) 0) := by
  unfold k0_pay3
  show Ideal.sqrt (max (Ideal.div (s' (ix2 p q) - Ideal.div (s (ix2 p q) * s (ix2 p q))
      (Ideal.ofBits .f32 0x48800000#32)) (Ideal.ofBits .f32 0x487FFFC0#32)) (Ideal.ofBits .f32 0x00000000#32)) = _
  rw [Cert.Stats.zeroW_eq]
  rfl

end Cert.KernelIdeal.PayloadValue

end
-- ==== Proof.RowBlocks.lean ====
/-
  A 512 x 512 plane walked in 8 blocks of 64 rows. An accumulator that starts at the neutral element and takes in
  one block of rows at a time — adding the block's sum, or taking the maximum (minimum) with the block's supremum
  (infimum) — ends at the plane's double sum, supremum, infimum.
-/
import proofs.«168508_j23227183136952_2_alg».proof.Proof.Spec
import proofs.«168508_j23227183136952_2_alg».proof.Proof.LibOrderFold
import Mathlib.Algebra.BigOperators.Fin
import Mathlib.Logic.Equiv.Fin.Basic

noncomputable section

namespace Cert.Stats

open scoped BigOperators

/-- A sum over 512 positions is the sum over 8 blocks of the sums over each block's 64 positions. -/
theorem sum_fin512_blocks {M : Type*} [AddCommMonoid M] (f : Fin 512 → M) :
    ∑ i, f i = ∑ h : Fin 8, ∑ r : Fin 64, f ⟨64 * h.val + r.val, by have := h.isLt; have := r.isLt; omega⟩ := by
  rw [← Equiv.sum_comp (finProdFinEquiv : Fin 8 × Fin 64 ≃ Fin 512) f, Fintype.sum_prod_type]
  refine Finset.sum_congr rfl fun h _ => Finset.sum_congr rfl fun r _ => ?_
  congr 1
  apply Fin.ext
  show r.val + 64 * h.val = 64 * h.val + r.val
  omega

/-- The accumulator that starts at 0 and adds one block of 64 rows at a time ends at the plane's double sum. -/
theorem sum_rowblocks (g : Fin 512 → Fin 512 → EReal) (a : ℕ → EReal) (h0 : a 0 = 0)
    (hs : ∀ h : Fin 8, a (h.val + 1) = a h.val + ∑ r : Fin 64, ∑ l : Fin 512,
      g ⟨64 * h.val + r.val, by have := h.isLt; have := r.isLt; omega⟩ l) :
    a 8 = ∑ i : Fin 512, ∑ j : Fin 512, g i j := by
  have e1 : a 1 = a 0 + _ := hs 0
  have e2 : a 2 = a 1 + _ := hs 1
  have e3 : a 3 = a 2 + _ := hs 2
  have e4 : a 4 = a 3 + _ := hs 3
  have e5 : a 5 = a 4 + _ := hs 4
  have e6 : a 6 = a 5 + _ := hs 5
  have e7 : a 7 = a 6 + _ := hs 6
  have e8 : a 8 = a 7 + _ := hs 7
  rw [e8, e7, e6, e5, e4, e3, e2, e1, h0, zero_add, sum_fin512_blocks (fun i => ∑ j : Fin 512, g i j),
    Fin.sum_univ_eight]

/-- The accumulator that starts at the bottom element and takes the maximum with one block's supremum at a time
    ends at the plane's supremum. -/
theorem sup_rowblocks (g : Fin 512 → Fin 512 → EReal) (a : ℕ → EReal) (h0 : a 0 = ⊥)
    (hs : ∀ h : Fin 8, a (h.val + 1) = max (a h.val) (⨆ r : Fin 64, ⨆ l : Fin 512,
      g ⟨64 * h.val + r.val, by have := h.isLt; have := r.isLt; omega⟩ l)) :
    a 8 = ⨆ i : Fin 512, ⨆ j : Fin 512, g i j := by
  have key : ∀ k, k ≤ 8 → a k = OrderFold.supBelow (fun i : Fin 512 => ⨆ j : Fin 512, g i j) (64 * k) := by
    intro k
    induction k with
    | zero => intro _; rw [h0, Nat.mul_zero, OrderFold.supBelow_zero]
    | succ k ih =>
      intro hk
      have hk' : k < 8 := by omega
      have e : a (k + 1) = max (a k) _ := hs ⟨k, hk'⟩
      rw [e, ih (by omega)]
      exact OrderFold.max_supBelow_block _ k (by omega) _ (fun r hr => rfl)
  rw [key 8 le_rfl]
  exact OrderFold.supBelow_all _ (by norm_num)

/-- The accumulator that starts at the top element and takes the minimum with one block's infimum at a time ends
    at the plane's infimum. -/
theorem inf_rowblocks (g : Fin 512 → Fin 512 → EReal) (a : ℕ → EReal) (h0 : a 0 = ⊤)
    (hs : ∀ h : Fin 8, a (h.val + 1) = min (a h.val) (⨅ r : Fin 64, ⨅ l : Fin 512,
      g ⟨64 * h.val + r.val, by have := h.isLt; have := r.isLt; omega⟩ l)) :
    a 8 = ⨅ i : Fin 512, ⨅ j : Fin 512, g i j := by
  have key : ∀ k, k ≤ 8 → a k = OrderFold.infBelow (fun i : Fin 512 => ⨅ j : Fin 512, g i j) (64 * k) := by
    intro k
    induction k with
    | zero => intro _; rw [h0, Nat.mul_zero, OrderFold.infBelow_zero]
    | succ k ih =>
      intro hk
      have hk' : k < 8 := by omega
      have e : a (k + 1) = min (a k) _ := hs ⟨k, hk'⟩
      rw [e, ih (by omega)]
      exact OrderFold.min_infBelow_block _ k (by omega) _ (fun r hr => rfl)
  rw [key 8 le_rfl]
  exact OrderFold.infBelow_all _ (by norm_num)

end Cert.Stats

end
-- ==== Proof.IdealValue.lean ====
/-
  The kernel's four result arrays as the statistics of the specification. The grid's 32 points are 4 batch blocks
  of 8 row blocks: point t = 8 bb + h stages rows 64 h .. 64 h + 63 of the planes of batches 8 bb .. 8 bb + 7. Inside a
  batch block the four accumulators start at 0, 0, bottom, top and take in one block of 64 rows per point, so after
  its eighth point they hold, at (p, q), the double sum, the double sum of squares, the supremum and the infimum of
  the plane of (8 bb + p, q). That point stores the mean and the moment form of the standard deviation of those sums,
  and the two extremes, into block (bb, 0) of the four result arrays; the four blocks tile them.
-/
import proofs.«168508_j23227183136952_2_alg».proof.Proof.IdealData
import proofs.«168508_j23227183136952_2_alg».proof.Proof.IdealPayload
import proofs.«168508_j23227183136952_2_alg».proof.Proof.RowBlocks
import proofs.«168508_j23227183136952_2_alg».proof.Proof.Spec
import Idealize.ShloMosaic.Lib.Pipeline.Value

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.PayloadValue Cert.Stats
open scoped BigOperators

variable (m : (ℓ : Loc nD τ sig) → Buf (Elt Ideal) ℓ)

/-- The argument array on a core. -/
abbrev X (c : Dev nD) : A4.Idx → EReal := m ((c.tc : Thread nD τ).loc main_arg0)

theorem N32 : cfg0.N = 32 := N_0
theorem val_lt (t : Fin cfg0.N) : t.val < 32 := lt_of_lt_of_eq t.isLt N32
theorem lt_N {n : ℕ} (h : n < 32) : n < cfg0.N := lt_of_lt_of_eq h N32.symm

/-! ## The index maps over the grid -/

theorem idx0 : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, _)

/-! ## The input's block at an index -/

theorem iblk_apply (c : Dev nD) (t : Fin cfg0.N) (p : Fin 8) (q : Fin 16) (r : Fin 64) (l : Fin 512)
    (i : Fin 32) (j : Fin 512) (hi : i.val = 8 * (t.val / 8) + p.val) (hj : j.val = 64 * (t.val % 8) + r.val) :
    (iblk m c 0 t : Vec Ideal S8x16x64x512 .f32) (ix4 p q r l) = X m c (ix4 i q j l) := by
  obtain ⟨e0, e1, e2, e3⟩ := idx0 t
  unfold iblk
  rw [View.read_apply]
  show V m c main_arg0 _ = m (c.tc.loc main_arg0) _
  unfold V
  congr 1
  funext a
  apply Fin.ext
  match a with
  | ⟨0, _⟩ => show win0_0.index t 0 * 8 + 1 * p.val = i.val; rw [e0, hi]; omega
  | ⟨1, _⟩ => show win0_0.index t 1 * 16 + 1 * q.val = q.val; rw [e1]; omega
  | ⟨2, _⟩ => show win0_0.index t 2 * 64 + 1 * r.val = j.val; rw [e2, hj]; omega
  | ⟨3, _⟩ => show win0_0.index t 3 * 512 + 1 * l.val = l.val; rw [e3]; omega

/-! ## The accumulators inside one batch block -/

/-- The accumulators of batch block bb before its row block k: the start values, then one block folded in at a time. -/
def accB (c : Dev nD) (bb : Fin 4) : ℕ → Acc Ideal
  | 0 => accInit
  | k + 1 => if h : k < 8 then
      accStep (iblk m c 0 ⟨8 * bb.val + k, by have := bb.isLt; rw [N32]; omega⟩) (accB c bb k)
    else accB c bb k

theorem accB_zero (c : Dev nD) (bb : Fin 4) : accB m c bb 0 = accInit := rfl

theorem accB_succ (c : Dev nD) (bb : Fin 4) (k : ℕ) (h : k < 8) :
    accB m c bb (k + 1)
      = accStep (iblk m c 0 ⟨8 * bb.val + k, by have := bb.isLt; rw [N32]; omega⟩) (accB m c bb k) := by
  rw [accB, dif_pos h]

theorem accAt_congr (c : Dev nD) {n n' : ℕ} (e : n = n') (h : n < cfg0.N) (h' : n' < cfg0.N) :
    accAt m c n h = accAt m c n' h' := by subst e; rfl

/-- After row block k of batch block bb the kernel's accumulators are these. -/
theorem accAt_eq_accB (c : Dev nD) (bb : Fin 4) :
    ∀ (k : ℕ) (hk : k < 8) (hn : 8 * bb.val + k < cfg0.N), accAt m c (8 * bb.val + k) hn = accB m c bb (k + 1)
  | 0, hk, hn => by
    rw [accB_succ m c bb 0 hk, accB_zero]
    exact accAt_first m c ⟨8 * bb.val + 0, hn⟩ (by show (8 * bb.val + 0) % 8 = 0; omega)
  | k + 1, hk, hn => by
    have hn' : 8 * bb.val + k < cfg0.N := by omega
    rw [accB_succ m c bb (k + 1) hk, ← accAt_eq_accB c bb k (by omega) hn']
    refine (accAt_next m c ⟨8 * bb.val + (k + 1), hn⟩ (by show ¬(8 * bb.val + (k + 1)) % 8 = 0; omega)).trans ?_
    exact congrArg (accStep _) (accAt_congr m c (by show 8 * bb.val + (k + 1) - 1 = 8 * bb.val + k; omega) _ _)

/-! ## The accumulators after a batch block's eight points, at an index -/

variable (c : Dev nD) (bb : Fin 4) (p : Fin 8) (q : Fin 16) (i : Fin 32)

/-- Row block h of batch block bb is rows 64 h .. 64 h + 63 of the plane of batch i = 8 bb + p. -/
theorem iblk_row (hb : i.val = 8 * bb.val + p.val) (h : Fin 8) (r : Fin 64) (l : Fin 512) :
    (iblk m c 0 ⟨8 * bb.val + h.val, by have := bb.isLt; have := h.isLt; rw [N32]; omega⟩ : Vec Ideal S8x16x64x512 .f32)
        (ix4 p q r l)
      = X m c (ix4 i q ⟨64 * h.val + r.val, by have := h.isLt; have := r.isLt; omega⟩ l) :=
  iblk_apply m c _ p q r l i _ (by show i.val = 8 * ((8 * bb.val + h.val) / 8) + p.val; have := h.isLt; omega)
    (by show 64 * h.val + r.val = 64 * ((8 * bb.val + h.val) % 8) + r.val; have := h.isLt; omega)

theorem accB_sum (hb : i.val = 8 * bb.val + p.val) : (accB m c bb 8).1 (ix2 p q) = tot (X m c) i q := by
  refine sum_rowblocks (fun r l => X m c (ix4 i q r l)) (fun k => (accB m c bb k).1 (ix2 p q)) ?_ ?_
  · exact pay4_apply p q
  · intro h
    show (accB m c bb (h.val + 1)).1 (ix2 p q) = _
    rw [accB_succ m c bb h.val h.isLt]
    refine (pay9_apply _ _ p q).trans ?_
    refine congrArg (_ + ·) ?_
    exact Finset.sum_congr rfl fun r _ => Finset.sum_congr rfl fun l _ => iblk_row m c bb p q i hb h r l

theorem accB_sq (hb : i.val = 8 * bb.val + p.val) : (accB m c bb 8).2.1 (ix2 p q) = totsq (X m c) i q := by
  refine sum_rowblocks (fun r l => X m c (ix4 i q r l) * X m c (ix4 i q r l)) (fun k => (accB m c bb k).2.1 (ix2 p q)) ?_ ?_
  · exact pay5_apply p q
  · intro h
    show (accB m c bb (h.val + 1)).2.1 (ix2 p q) = _
    rw [accB_succ m c bb h.val h.isLt]
    refine (pay10_apply _ _ p q).trans ?_
    refine congrArg (_ + ·) ?_
    refine Finset.sum_congr rfl fun r _ => Finset.sum_congr rfl fun l _ => ?_
    rw [iblk_row m c bb p q i hb h r l]

theorem accB_max (hb : i.val = 8 * bb.val + p.val) : (accB m c bb 8).2.2.1 (ix2 p q) = hi (X m c) i q := by
  refine sup_rowblocks (fun r l => X m c (ix4 i q r l)) (fun k => (accB m c bb k).2.2.1 (ix2 p q)) ?_ ?_
  · exact pay6_apply p q
  · intro h
    show (accB m c bb (h.val + 1)).2.2.1 (ix2 p q) = _
    rw [accB_succ m c bb h.val h.isLt]
    refine (pay11_apply _ _ p q).trans ?_
    refine congrArg (max _) ?_
    exact iSup_congr fun r => iSup_congr fun l => iblk_row m c bb p q i hb h r l

theorem accB_min (hb : i.val = 8 * bb.val + p.val) : (accB m c bb 8).2.2.2 (ix2 p q) = lo (X m c) i q := by
  refine inf_rowblocks (fun r l => X m c (ix4 i q r l)) (fun k => (accB m c bb k).2.2.2 (ix2 p q)) ?_ ?_
  · exact pay7_apply p q
  · intro h
    show (accB m c bb (h.val + 1)).2.2.2 (ix2 p q) = _
    rw [accB_succ m c bb h.val h.isLt]
    refine (pay1_8_apply _ _ p q).trans ?_
    refine congrArg (min _) ?_
    exact iInf_congr fun r => iInf_congr fun l => iblk_row m c bb p q i hb h r l

/-! ## What a batch block's last point stores -/

/-- At a batch block's last point the accumulators are those after its eight row blocks. -/
theorem accAt_last (t : Fin cfg0.N) (h7 : t.val % 8 = 7) :
    accAt m c t.val t.isLt = accB m c ⟨t.val / 8, by have := val_lt t; omega⟩ 8 := by
  have hn : 8 * (t.val / 8) + 7 < cfg0.N := lt_N (by have := val_lt t; omega)
  rw [← accAt_eq_accB m c ⟨t.val / 8, by have := val_lt t; omega⟩ 7 (by norm_num) hn]
  exact accAt_congr m c (by show t.val = 8 * (t.val / 8) + 7; omega) _ _

/-- The four stored blocks at (p, q): the statistics of the plane of batch 8 (t / 8) + p, channel q. -/
theorem out_mean (t : Fin cfg0.N) (h7 : t.val % 8 = 7) (hb : i.val = 8 * (t.val / 8) + p.val) :
    (accOut (accAt m c t.val t.isLt)).1 (ix2 p q) = mean (X m c) i q := by
  rw [accAt_last m c t h7]
  refine (pay2_apply _ p q).trans ?_
  rw [accB_sum m c _ p q i hb]
  rfl

theorem out_std (t : Fin cfg0.N) (h7 : t.val % 8 = 7) (hb : i.val = 8 * (t.val / 8) + p.val) :
    (accOut (accAt m c t.val t.isLt)).2.1 (ix2 p q) = stdMoment (X m c) i q := by
  rw [accAt_last m c t h7]
  refine (pay3_apply _ _ p q).trans ?_
  rw [accB_sum m c _ p q i hb, accB_sq m c _ p q i hb]
  rfl

theorem out_max (t : Fin cfg0.N) (h7 : t.val % 8 = 7) (hb : i.val = 8 * (t.val / 8) + p.val) :
    (accOut (accAt m c t.val t.isLt)).2.2.1 (ix2 p q) = hi (X m c) i q := by
  rw [accAt_last m c t h7]
  exact accB_max m c _ p q i hb

theorem out_min (t : Fin cfg0.N) (h7 : t.val % 8 = 7) (hb : i.val = 8 * (t.val / 8) + p.val) :
    (accOut (accAt m c t.val t.isLt)).2.2.2 (ix2 p q) = lo (X m c) i q := by
  rw [accAt_last m c t h7]
  exact accB_min m c _ p q i hb

/-! ## From blocks to the arrays

Result window w (1 .. 4) has index map (grid coordinate 0, 0): point t's block is rows 8 (t / 8) .. 8 (t / 8) + 7 of
its [32, 16] array, written back at the points t with t % 8 = 7. -/

/-! ### Window 1: the mean -/

theorem idx1 : ∀ t : Fin cfg0.N, win0_1.index t (0 : Fin 2) = t.val / 8 ∧ win0_1.index t (1 : Fin 2) = 0 :=
  (by decide +kernel : ∀ t : Fin grid0.N, _)

/-- The stored block at a block index y, and the array's statistic at the array index k the block's rectangle sends y to. -/
theorem blk_mean (t : Fin cfg0.N) (h7 : t.val % 8 = 7) (y : S8x16.Idx) (k : S32x16.Idx)
    (hk0 : (k 0).val = 8 * (t.val / 8) + (y 0).val) (hk1 : (k 1).val = (y 1).val) :
    (accOut (accAt m c t.val t.isLt)).1 y = meanA (X m c) k := by
  obtain ⟨p, q, rfl⟩ : ∃ (p : Fin 8) (q : Fin 16), y = ix2 p q := ⟨y 0, y 1, eq_ix2 y⟩
  obtain ⟨i, q', rfl⟩ : ∃ (i : Fin 32) (q' : Fin 16), k = ix2 i q' := ⟨k 0, k 1, eq_ix2 k⟩
  obtain rfl : q' = q := Fin.ext hk1
  exact out_mean m c p q' i t h7 hk0

/-- What a batch block's last point writes back is its block of the statistic's array. -/
theorem flushed_mean (t : Fin cfg0.N) (hf : (cfg0.win 1).flush t = true) :
    (dats m 0 c).flushed 1 t = ((cfg0.win 1).blk t).view.read (Elt Ideal) (meanA (X m c)) := by
  have h7 : t.val % 8 = 7 := (flush0_1 t).mp hf
  obtain ⟨e0, e1⟩ := idx1 t
  show (cfg0.win 1).cut (grid0.coords t) ((dats m 0 c).after 1 t) = _
  rw [after_1]
  funext j
  show (accOut (accAt m c t.val t.isLt)).1 j = meanA (X m c) (((cfg0.win 1).blk t).view.emb j)
  refine blk_mean m c t h7 j _ ?_ ?_
  · show win0_1.index t 0 * 8 + 1 * (j 0).val = 8 * (t.val / 8) + (j 0).val
    rw [e0]; omega
  · show win0_1.index t 1 * 16 + 1 * (j 1).val = (j 1).val
    rw [e1]; omega

/-- An index of the array is in point t's block iff each coordinate is in the block's range on its axis. -/
theorem mem_blk1 (t : Fin cfg0.N) (k : S32x16.Idx) :
    k ∈ ((cfg0.win 1).blk t).view.set ↔ ∀ a : Fin 2, win0_1.index t a * S8x16.size a ≤ (k a).val
      ∧ (k a).val < win0_1.index t a * S8x16.size a + S8x16.size a := by
  show k ∈ ((View.whole main_v0_0).slice (win0_1.rect t)).set ↔ _
  rw [View.set_slice_whole, Rect.mem_set_unit]
  exact Iff.rfl

/-- Row b of the array lies in the block written back at the last point of batch block b / 8. -/
theorem cover1 (k : S32x16.Idx) :
    ∃ t : Fin cfg0.N, (cfg0.win 1).flush t = true ∧ k ∈ ((cfg0.win 1).blk t).view.set := by
  have hk0 : (k 0).val < 32 := (k 0).isLt
  have hk1 : (k 1).val < 16 := (k 1).isLt
  obtain ⟨t, ht⟩ : ∃ t : Fin cfg0.N, t.val = 8 * ((k 0).val / 8) + 7 := ⟨⟨_, lt_N (by omega)⟩, rfl⟩
  obtain ⟨e0, e1⟩ := idx1 t
  refine ⟨t, (flush0_1 t).mpr (by omega), ?_⟩
  rw [mem_blk1]
  intro a
  match a with
  | ⟨0, _⟩ =>
    show win0_1.index t 0 * 8 ≤ (k 0).val ∧ (k 0).val < win0_1.index t 0 * 8 + 8
    rw [e0]; omega
  | ⟨1, _⟩ =>
    show win0_1.index t 1 * 16 ≤ (k 1).val ∧ (k 1).val < win0_1.index t 1 * 16 + 16
    rw [e1]; omega

/-- The array after the run. -/
theorem final_mean : (dats (F := Ideal) m 0 c).arrAt 1 cfg0.N = Cert.Stats.meanA (m ((c.tc : Thread nD τ).loc main_arg0)) :=
  (dats m 0 c).arrAt_eq_of_cover 1 (meanA (X m c)) (fun t hf => flushed_mean m c t hf) (cover1)

/-! ### Window 2: the standard deviation, moment form -/

theorem idx2 : ∀ t : Fin cfg0.N, win0_2.index t (0 : Fin 2) = t.val / 8 ∧ win0_2.index t (1 : Fin 2) = 0 :=
  (by decide +kernel : ∀ t : Fin grid0.N, _)

/-- The stored block at a block index y, and the array's statistic at the array index k the block's rectangle sends y to. -/
theorem blk_std (t : Fin cfg0.N) (h7 : t.val % 8 = 7) (y : S8x16.Idx) (k : S32x16.Idx)
    (hk0 : (k 0).val = 8 * (t.val / 8) + (y 0).val) (hk1 : (k 1).val = (y 1).val) :
    (accOut (accAt m c t.val t.isLt)).2.1 y = stdMomentA (X m c) k := by
  obtain ⟨p, q, rfl⟩ : ∃ (p : Fin 8) (q : Fin 16), y = ix2 p q := ⟨y 0, y 1, eq_ix2 y⟩
  obtain ⟨i, q', rfl⟩ : ∃ (i : Fin 32) (q' : Fin 16), k = ix2 i q' := ⟨k 0, k 1, eq_ix2 k⟩
  obtain rfl : q' = q := Fin.ext hk1
  exact out_std m c p q' i t h7 hk0

/-- What a batch block's last point writes back is its block of the statistic's array. -/
theorem flushed_std (t : Fin cfg0.N) (hf : (cfg0.win 2).flush t = true) :
    (dats m 0 c).flushed 2 t = ((cfg0.win 2).blk t).view.read (Elt Ideal) (stdMomentA (X m c)) := by
  have h7 : t.val % 8 = 7 := (flush0_2 t).mp hf
  obtain ⟨e0, e1⟩ := idx2 t
  show (cfg0.win 2).cut (grid0.coords t) ((dats m 0 c).after 2 t) = _
  rw [after_2]
  funext j
  show (accOut (accAt m c t.val t.isLt)).2.1 j = stdMomentA (X m c) (((cfg0.win 2).blk t).view.emb j)
  refine blk_std m c t h7 j _ ?_ ?_
  · show win0_2.index t 0 * 8 + 1 * (j 0).val = 8 * (t.val / 8) + (j 0).val
    rw [e0]; omega
  · show win0_2.index t 1 * 16 + 1 * (j 1).val = (j 1).val
    rw [e1]; omega

/-- An index of the array is in point t's block iff each coordinate is in the block's range on its axis. -/
theorem mem_blk2 (t : Fin cfg0.N) (k : S32x16.Idx) :
    k ∈ ((cfg0.win 2).blk t).view.set ↔ ∀ a : Fin 2, win0_2.index t a * S8x16.size a ≤ (k a).val
      ∧ (k a).val < win0_2.index t a * S8x16.size a + S8x16.size a := by
  show k ∈ ((View.whole main_v0_1).slice (win0_2.rect t)).set ↔ _
  rw [View.set_slice_whole, Rect.mem_set_unit]
  exact Iff.rfl

/-- Row b of the array lies in the block written back at the last point of batch block b / 8. -/
theorem cover2 (k : S32x16.Idx) :
    ∃ t : Fin cfg0.N, (cfg0.win 2).flush t = true ∧ k ∈ ((cfg0.win 2).blk t).view.set := by
  have hk0 : (k 0).val < 32 := (k 0).isLt
  have hk1 : (k 1).val < 16 := (k 1).isLt
  obtain ⟨t, ht⟩ : ∃ t : Fin cfg0.N, t.val = 8 * ((k 0).val / 8) + 7 := ⟨⟨_, lt_N (by omega)⟩, rfl⟩
  obtain ⟨e0, e1⟩ := idx2 t
  refine ⟨t, (flush0_2 t).mpr (by omega), ?_⟩
  rw [mem_blk2]
  intro a
  match a with
  | ⟨0, _⟩ =>
    show win0_2.index t 0 * 8 ≤ (k 0).val ∧ (k 0).val < win0_2.index t 0 * 8 + 8
    rw [e0]; omega
  | ⟨1, _⟩ =>
    show win0_2.index t 1 * 16 ≤ (k 1).val ∧ (k 1).val < win0_2.index t 1 * 16 + 16
    rw [e1]; omega

/-- The array after the run. -/
theorem final_std : (dats (F := Ideal) m 0 c).arrAt 2 cfg0.N = Cert.Stats.stdMomentA (m ((c.tc : Thread nD τ).loc main_arg0)) :=
  (dats m 0 c).arrAt_eq_of_cover 2 (stdMomentA (X m c)) (fun t hf => flushed_std m c t hf) (cover2)

/-! ### Window 3: the maximum -/

theorem idx3 : ∀ t : Fin cfg0.N, win0_3.index t (0 : Fin 2) = t.val / 8 ∧ win0_3.index t (1 : Fin 2) = 0 :=
  (by decide +kernel : ∀ t : Fin grid0.N, _)

/-- The stored block at a block index y, and the array's statistic at the array index k the block's rectangle sends y to. -/
theorem blk_max (t : Fin cfg0.N) (h7 : t.val % 8 = 7) (y : S8x16.Idx) (k : S32x16.Idx)
    (hk0 : (k 0).val = 8 * (t.val / 8) + (y 0).val) (hk1 : (k 1).val = (y 1).val) :
    (accOut (accAt m c t.val t.isLt)).2.2.1 y = hiA (X m c) k := by
  obtain ⟨p, q, rfl⟩ : ∃ (p : Fin 8) (q : Fin 16), y = ix2 p q := ⟨y 0, y 1, eq_ix2 y⟩
  obtain ⟨i, q', rfl⟩ : ∃ (i : Fin 32) (q' : Fin 16), k = ix2 i q' := ⟨k 0, k 1, eq_ix2 k⟩
  obtain rfl : q' = q := Fin.ext hk1
  exact out_max m c p q' i t h7 hk0

/-- What a batch block's last point writes back is its block of the statistic's array. -/
theorem flushed_max (t : Fin cfg0.N) (hf : (cfg0.win 3).flush t = true) :
    (dats m 0 c).flushed 3 t = ((cfg0.win 3).blk t).view.read (Elt Ideal) (hiA (X m c)) := by
  have h7 : t.val % 8 = 7 := (flush0_3 t).mp hf
  obtain ⟨e0, e1⟩ := idx3 t
  show (cfg0.win 3).cut (grid0.coords t) ((dats m 0 c).after 3 t) = _
  rw [after_3]
  funext j
  show (accOut (accAt m c t.val t.isLt)).2.2.1 j = hiA (X m c) (((cfg0.win 3).blk t).view.emb j)
  refine blk_max m c t h7 j _ ?_ ?_
  · show win0_3.index t 0 * 8 + 1 * (j 0).val = 8 * (t.val / 8) + (j 0).val
    rw [e0]; omega
  · show win0_3.index t 1 * 16 + 1 * (j 1).val = (j 1).val
    rw [e1]; omega

/-- An index of the array is in point t's block iff each coordinate is in the block's range on its axis. -/
theorem mem_blk3 (t : Fin cfg0.N) (k : S32x16.Idx) :
    k ∈ ((cfg0.win 3).blk t).view.set ↔ ∀ a : Fin 2, win0_3.index t a * S8x16.size a ≤ (k a).val
      ∧ (k a).val < win0_3.index t a * S8x16.size a + S8x16.size a := by
  show k ∈ ((View.whole main_v0_2).slice (win0_3.rect t)).set ↔ _
  rw [View.set_slice_whole, Rect.mem_set_unit]
  exact Iff.rfl

/-- Row b of the array lies in the block written back at the last point of batch block b / 8. -/
theorem cover3 (k : S32x16.Idx) :
    ∃ t : Fin cfg0.N, (cfg0.win 3).flush t = true ∧ k ∈ ((cfg0.win 3).blk t).view.set := by
  have hk0 : (k 0).val < 32 := (k 0).isLt
  have hk1 : (k 1).val < 16 := (k 1).isLt
  obtain ⟨t, ht⟩ : ∃ t : Fin cfg0.N, t.val = 8 * ((k 0).val / 8) + 7 := ⟨⟨_, lt_N (by omega)⟩, rfl⟩
  obtain ⟨e0, e1⟩ := idx3 t
  refine ⟨t, (flush0_3 t).mpr (by omega), ?_⟩
  rw [mem_blk3]
  intro a
  match a with
  | ⟨0, _⟩ =>
    show win0_3.index t 0 * 8 ≤ (k 0).val ∧ (k 0).val < win0_3.index t 0 * 8 + 8
    rw [e0]; omega
  | ⟨1, _⟩ =>
    show win0_3.index t 1 * 16 ≤ (k 1).val ∧ (k 1).val < win0_3.index t 1 * 16 + 16
    rw [e1]; omega

/-- The array after the run. -/
theorem final_max : (dats (F := Ideal) m 0 c).arrAt 3 cfg0.N = Cert.Stats.hiA (m ((c.tc : Thread nD τ).loc main_arg0)) :=
  (dats m 0 c).arrAt_eq_of_cover 3 (hiA (X m c)) (fun t hf => flushed_max m c t hf) (cover3)

/-! ### Window 4: the minimum -/

theorem idx4 : ∀ t : Fin cfg0.N, win0_4.index t (0 : Fin 2) = t.val / 8 ∧ win0_4.index t (1 : Fin 2) = 0 :=
  (by decide +kernel : ∀ t : Fin grid0.N, _)

/-- The stored block at a block index y, and the array's statistic at the array index k the block's rectangle sends y to. -/
theorem blk_min (t : Fin cfg0.N) (h7 : t.val % 8 = 7) (y : S8x16.Idx) (k : S32x16.Idx)
    (hk0 : (k 0).val = 8 * (t.val / 8) + (y 0).val) (hk1 : (k 1).val = (y 1).val) :
    (accOut (accAt m c t.val t.isLt)).2.2.2 y = loA (X m c) k := by
  obtain ⟨p, q, rfl⟩ : ∃ (p : Fin 8) (q : Fin 16), y = ix2 p q := ⟨y 0, y 1, eq_ix2 y⟩
  obtain ⟨i, q', rfl⟩ : ∃ (i : Fin 32) (q' : Fin 16), k = ix2 i q' := ⟨k 0, k 1, eq_ix2 k⟩
  obtain rfl : q' = q := Fin.ext hk1
  exact out_min m c p q' i t h7 hk0

/-- What a batch block's last point writes back is its block of the statistic's array. -/
theorem flushed_min (t : Fin cfg0.N) (hf : (cfg0.win 4).flush t = true) :
    (dats m 0 c).flushed 4 t = ((cfg0.win 4).blk t).view.read (Elt Ideal) (loA (X m c)) := by
  have h7 : t.val % 8 = 7 := (flush0_4 t).mp hf
  obtain ⟨e0, e1⟩ := idx4 t
  show (cfg0.win 4).cut (grid0.coords t) ((dats m 0 c).after 4 t) = _
  rw [after_4]
  funext j
  show (accOut (accAt m c t.val t.isLt)).2.2.2 j = loA (X m c) (((cfg0.win 4).blk t).view.emb j)
  refine blk_min m c t h7 j _ ?_ ?_
  · show win0_4.index t 0 * 8 + 1 * (j 0).val = 8 * (t.val / 8) + (j 0).val
    rw [e0]; omega
  · show win0_4.index t 1 * 16 + 1 * (j 1).val = (j 1).val
    rw [e1]; omega

/-- An index of the array is in point t's block iff each coordinate is in the block's range on its axis. -/
theorem mem_blk4 (t : Fin cfg0.N) (k : S32x16.Idx) :
    k ∈ ((cfg0.win 4).blk t).view.set ↔ ∀ a : Fin 2, win0_4.index t a * S8x16.size a ≤ (k a).val
      ∧ (k a).val < win0_4.index t a * S8x16.size a + S8x16.size a := by
  show k ∈ ((View.whole main_v0_3).slice (win0_4.rect t)).set ↔ _
  rw [View.set_slice_whole, Rect.mem_set_unit]
  exact Iff.rfl

/-- Row b of the array lies in the block written back at the last point of batch block b / 8. -/
theorem cover4 (k : S32x16.Idx) :
    ∃ t : Fin cfg0.N, (cfg0.win 4).flush t = true ∧ k ∈ ((cfg0.win 4).blk t).view.set := by
  have hk0 : (k 0).val < 32 := (k 0).isLt
  have hk1 : (k 1).val < 16 := (k 1).isLt
  obtain ⟨t, ht⟩ : ∃ t : Fin cfg0.N, t.val = 8 * ((k 0).val / 8) + 7 := ⟨⟨_, lt_N (by omega)⟩, rfl⟩
  obtain ⟨e0, e1⟩ := idx4 t
  refine ⟨t, (flush0_4 t).mpr (by omega), ?_⟩
  rw [mem_blk4]
  intro a
  match a with
  | ⟨0, _⟩ =>
    show win0_4.index t 0 * 8 ≤ (k 0).val ∧ (k 0).val < win0_4.index t 0 * 8 + 8
    rw [e0]; omega
  | ⟨1, _⟩ =>
    show win0_4.index t 1 * 16 ≤ (k 1).val ∧ (k 1).val < win0_4.index t 1 * 16 + 16
    rw [e1]; omega

/-- The array after the run. -/
theorem final_min : (dats (F := Ideal) m 0 c).arrAt 4 cfg0.N = Cert.Stats.loA (m ((c.tc : Thread nD τ).loc main_arg0)) :=
  (dats m 0 c).arrAt_eq_of_cover 4 (loA (X m c)) (fun t hf => flushed_min m c t hf) (cover4)

end Cert.KernelIdeal.KValue

end
-- ==== Proof.IdealResult.lean ====
/-
  The idealized kernel's run with its result named. After the last grid point each of the four output arrays holds one
  statistic of every (batch, channel) plane of the argument: the mean, the standard deviation in its moment form, the
  supremum, the infimum. The host operation after the region joins the four along the channel axis, so the result is
  the specification's packed array of the argument; the argument itself is an input window's array and is never
  written back.
-/
import proofs.«168508_j23227183136952_2_alg».proof.Proof.IdealFrame
import proofs.«168508_j23227183136952_2_alg».proof.Proof.IdealTail
import proofs.«168508_j23227183136952_2_alg».proof.Proof.IdealValue
import proofs.«168508_j23227183136952_2_alg».proof.Proof.Spec

set_option maxRecDepth 16384

noncomputable section

namespace Cert.KernelIdeal.KResult

open Idealize.ShloMosaic Idealize.ShloMosaic.TcCoe
open Idealize.SL Idealize.SL.Sem
open Idealize.ShloMosaic.Pipeline (Dat Cfg)
open Cert.KernelIdeal Cert.KernelIdeal.Gen Cert.KernelIdeal.Hand

/-- The result buffer after the run is the four statistics of the argument, packed. -/
theorem result_eq (m : (ℓ : Loc nD τ sig) → Buf (Elt Ideal) ℓ) (c : Dev nD) :
    Pipeline.afterTail₀ cfgs (dats (F := Ideal) m) 0 (V0 m) [hostOps1] c main_v1
      = Cert.Stats.packed Facts₀.concatenates_S32x16_S32x16_S32x16_S32x16_S32x64_d1
          (Cert.Stats.meanA (m ((c.tc : Thread nD τ).loc main_arg0))) (Cert.Stats.stdMomentA (m ((c.tc : Thread nD τ).loc main_arg0)))
          (Cert.Stats.hiA (m ((c.tc : Thread nD τ).loc main_arg0))) (Cert.Stats.loA (m ((c.tc : Thread nD τ).loc main_arg0))) := by
  rw [Cert.KernelIdeal.KTail.tail_result m c, Cert.KernelIdeal.KValue.final_mean m c, Cert.KernelIdeal.KValue.final_std m c,
    Cert.KernelIdeal.KValue.final_max m c, Cert.KernelIdeal.KValue.final_min m c]
  rfl

/-- Every weakly fair execution of the idealized kernel's @main terminates with the result buffer at the packed
    statistics of the argument and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
          = Cert.Stats.packed Facts₀.concatenates_S32x16_S32x16_S32x16_S32x16_S32x64_d1
              (Cert.Stats.meanA (m ((c.tc : Thread nD τ).loc main_arg0))) (Cert.Stats.stdMomentA (m ((c.tc : Thread nD τ).loc main_arg0)))
              (Cert.Stats.hiA (m ((c.tc : Thread nD τ).loc main_arg0))) (Cert.Stats.loA (m ((c.tc : Thread nD τ).loc main_arg0)))
        ∧ r.2.mem ((c.tc : Thread nD τ).loc main_arg0) = m ((c.tc : Thread nD τ).loc main_arg0)) :=
  (θ_run defs _ _).mono (fun _ h c =>
    ⟨((h c).2 main_v1 Cert.KernelIdeal.KTail.v1_rest).trans (result_eq m c),
     ((h c).1 0).trans (((dats m 0 c).arrAt_in 0 rfl _).trans ((A_eq m c 0).trans (V_arg0 m c)))⟩) (run_main m ρ)

end Cert.KernelIdeal.KResult

end
-- ==== Proof.StdLaw.lean ====
/-
  The two spellings of the unbiased standard deviation agree on finite entries.

  Over the reals, with n = 262144 = 512 * 512 the number of entries of a plane, S the plane's total, Q its total of
  squares and mu = S / n its mean,
      sum (x - mu)^2 = Q - 2 mu S + n mu^2 = Q - S^2 / n,
  and the left side is a sum of squares, hence nonnegative. So the moment form's clamp at 0 is the identity and the
  two radicands are the same real; the extended-real statement follows by pushing the coercion of the reals through
  the finite sums, the products, the differences and the divisions by the nonzero constants n and n - 1.
-/
import proofs.«168508_j23227183136952_2_alg».proof.Proof.Spec
import Mathlib.Data.EReal.Inv
import Mathlib.Algebra.BigOperators.Group.Finset.Basic
import Mathlib.Algebra.BigOperators.Ring.Finset
import Mathlib.Algebra.Order.BigOperators.Ring.Finset
import Mathlib.Tactic

noncomputable section

namespace Cert.Stats

open Idealize.ShloMosaic Idealize.ShloMosaic.ValueIdx
open scoped BigOperators

/-- The coercion of the reals into the extended reals commutes with finite sums. -/
theorem coe_finsum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same for the double sum over a plane. -/
theorem coe_plane_sum (f : Fin 512 → Fin 512 → ℝ) :
    ((∑ i : Fin 512, ∑ j : Fin 512, f i j : ℝ) : EReal) = ∑ i : Fin 512, ∑ j : Fin 512, ((f i j : ℝ) : EReal) := by
  rw [coe_finsum]
  exact Finset.sum_congr rfl fun i _ => coe_finsum _ _

/-- The real identity: the squared deviations from the mean total Q - S^2 / n (n = 262144 entries). -/
theorem plane_centred_eq (x : Fin 512 → Fin 512 → ℝ) :
    ∑ i : Fin 512, ∑ j : Fin 512,
        (x i j - (∑ i : Fin 512, ∑ j : Fin 512, x i j) * (1 / 262144))
          * (x i j - (∑ i : Fin 512, ∑ j : Fin 512, x i j) * (1 / 262144))
      = (∑ i : Fin 512, ∑ j : Fin 512, x i j * x i j)
          - ((∑ i : Fin 512, ∑ j : Fin 512, x i j) * (∑ i : Fin 512, ∑ j : Fin 512, x i j)) * (1 / 262144) := by
  generalize hS : (∑ i : Fin 512, ∑ j : Fin 512, x i j) = S
  have h1 : ∀ i j, (x i j - S * (1 / 262144)) * (x i j - S * (1 / 262144))
      = x i j * x i j - (2 * (S * (1 / 262144))) * x i j + (S * (1 / 262144)) * (S * (1 / 262144)) := by
    intro i j; ring
  simp_rw [h1, Finset.sum_add_distrib, Finset.sum_sub_distrib, ← Finset.mul_sum, hS, Finset.sum_const,
    Finset.card_univ, Fintype.card_fin, nsmul_eq_mul]
  push_cast
  ring

/-- The squared deviations total a nonnegative real. -/
theorem plane_centred_nonneg (x : Fin 512 → Fin 512 → ℝ) (m : ℝ) :
    0 ≤ ∑ i : Fin 512, ∑ j : Fin 512, (x i j - m) * (x i j - m) :=
  Finset.sum_nonneg fun i _ => Finset.sum_nonneg fun j _ => mul_self_nonneg _

/-- On finite entries the moment form and the centred form of the standard deviation are the same extended real. -/
theorem stdMoment_eq_stdCentred (X : A4.Idx → EReal) (hfin : ∀ i, X i ≠ ⊤ ∧ X i ≠ ⊥) (b : Fin 32) (ch : Fin 16) :
    stdMoment X b ch = stdCentred X b ch := by
  -- real witnesses of the plane's entries
  obtain ⟨x, hx⟩ : ∃ x : Fin 512 → Fin 512 → ℝ, ∀ i j, X (ix4 b ch i j) = ((x i j : ℝ) : EReal) :=
    ⟨fun i j => (X (ix4 b ch i j)).toReal, fun i j => (EReal.coe_toReal (hfin _).1 (hfin _).2).symm⟩
  -- the two totals are (coercions of) the real totals
  have htot : tot X b ch = ((∑ i : Fin 512, ∑ j : Fin 512, x i j : ℝ) : EReal) := by
    rw [coe_plane_sum]
    exact Finset.sum_congr rfl fun i _ => Finset.sum_congr rfl fun j _ => hx i j
  have htotsq : totsq X b ch = ((∑ i : Fin 512, ∑ j : Fin 512, x i j * x i j : ℝ) : EReal) := by
    rw [coe_plane_sum]
    exact Finset.sum_congr rfl fun i _ => Finset.sum_congr rfl fun j _ => by rw [hx i j, EReal.coe_mul]
  -- the mean is the real mean
  have hmean : mean X b ch = (((∑ i : Fin 512, ∑ j : Fin 512, x i j) * (1 / 262144) : ℝ) : EReal) := by
    rw [mean, htot, nW_eq, Ideal.div_coe (by norm_num), EReal.coe_mul]
  -- the squared deviations total the real total of squared deviations
  have hcen : (∑ i : Fin 512, ∑ j : Fin 512,
        (X (ix4 b ch i j) - mean X b ch) * (X (ix4 b ch i j) - mean X b ch))
      = ((∑ i : Fin 512, ∑ j : Fin 512,
          (x i j - (∑ i : Fin 512, ∑ j : Fin 512, x i j) * (1 / 262144))
            * (x i j - (∑ i : Fin 512, ∑ j : Fin 512, x i j) * (1 / 262144)) : ℝ) : EReal) := by
    rw [coe_plane_sum, hmean]
    exact Finset.sum_congr rfl fun i _ => Finset.sum_congr rfl fun j _ => by
      rw [hx i j, ← EReal.coe_sub, ← EReal.coe_mul]
  -- n - 1 = 262143
  have hn1 : nW - ((1 : ℝ) : EReal) = ((262143 : ℝ) : EReal) := by
    rw [nW_eq, ← EReal.coe_sub]; norm_num
  -- the centred form's radicand
  have hradC : Ideal.div (∑ i : Fin 512, ∑ j : Fin 512,
        (X (ix4 b ch i j) - mean X b ch) * (X (ix4 b ch i j) - mean X b ch)) (nW - ((1 : ℝ) : EReal))
      = (((∑ i : Fin 512, ∑ j : Fin 512,
          (x i j - (∑ i : Fin 512, ∑ j : Fin 512, x i j) * (1 / 262144))
            * (x i j - (∑ i : Fin 512, ∑ j : Fin 512, x i j) * (1 / 262144))) * (1 / 262143) : ℝ) : EReal) := by
    rw [hcen, hn1, Ideal.div_coe (by norm_num), ← EReal.coe_mul]
  -- the moment form's radicand, before the clamp: the same real, by the identity over the reals
  have hradM : Ideal.div (totsq X b ch - Ideal.div (tot X b ch * tot X b ch) nW) n1W
      = (((∑ i : Fin 512, ∑ j : Fin 512,
          (x i j - (∑ i : Fin 512, ∑ j : Fin 512, x i j) * (1 / 262144))
            * (x i j - (∑ i : Fin 512, ∑ j : Fin 512, x i j) * (1 / 262144))) * (1 / 262143) : ℝ) : EReal) := by
    rw [htot, htotsq, nW_eq, n1W_eq, ← EReal.coe_mul, Ideal.div_coe (by norm_num), Ideal.div_coe (by norm_num),
      ← EReal.coe_mul, ← EReal.coe_sub, ← EReal.coe_mul, plane_centred_eq]
  -- that real is nonnegative, so the clamp at 0 is the identity
  have hnn : (0 : EReal) ≤ (((∑ i : Fin 512, ∑ j : Fin 512,
          (x i j - (∑ i : Fin 512, ∑ j : Fin 512, x i j) * (1 / 262144))
            * (x i j - (∑ i : Fin 512, ∑ j : Fin 512, x i j) * (1 / 262144))) * (1 / 262143) : ℝ) : EReal) :=
    EReal.coe_nonneg.mpr (mul_nonneg (plane_centred_nonneg x _) (by norm_num))
  unfold stdMoment stdCentred
  rw [hradC, hradM, max_eq_left hnn]

/-- The same, for the two [32, 16] arrays. -/
theorem stdMomentA_eq_stdCentredA (X : A4.Idx → EReal) (hfin : ∀ i, X i ≠ ⊤ ∧ X i ≠ ⊥) :
    stdMomentA X = stdCentredA X :=
  funext fun j => stdMoment_eq_stdCentred X hfin (j 0) (j 1)

end Cert.Stats

end
-- ==== Proof.FiniteInputs.lean ====
/-
  The precondition says every entry of the argument is finite.

  The predicate is the conjunction, over all entries x of the [32, 16, 512, 512] argument, of |x| < +infinity, where
  |x| = max x (-x) at the extended reals and the constant is the value of the f32 infinity word, the order's top.
  A conjunction that holds had every conjunct hold; and max x (-x) < top excludes x = top (then the maximum is top)
  and x = bottom (then -x = top).
-/
import proofs.«168508_j23227183136952_2_alg».proof.Pre_finite_inputs
import proofs.«168508_j23227183136952_2_alg».proof.Proof.Gen.Pre_finite_inputs
import proofs.«168508_j23227183136952_2_alg».proof.Proof.Spec
import Idealize.ShloMosaic.Lib.ReduceAll
import Idealize.ShloMosaic.Lib.ValueIdx

noncomputable section

namespace Cert.Stats

open Idealize.ShloMosaic Idealize.ShloMosaic.ValueIdx

/-- The rank-0 shape has one index. -/
instance subsingleton_scalar_idx : Subsingleton Cert.Pre_finite_inputs.S_.Idx :=
  ⟨fun a b => funext fun d => d.elim0⟩

/-- An extended real whose absolute value max x (-x) is below the top is neither infinity. -/
theorem ne_top_bot_of_abs_lt_top (x : EReal) (hlt : max x (-x) < (⊤ : EReal)) : x ≠ ⊤ ∧ x ≠ ⊥ := by
  constructor
  · intro hT; rw [hT] at hlt; simp at hlt
  · intro hB; rw [hB] at hlt; simp at hlt

/-- If the finiteness predicate holds of the argument, every entry is a real. -/
theorem finite_of_pre (X : FVec Ideal Cert.Pre_finite_inputs.S32x16x512x512 .f32)
    (h : Cert.Pre_finite_inputs.fn (F := Ideal) X = fun _ => 1#1) : ∀ i, X i ≠ ⊤ ∧ X i ≠ ⊥ := by
  intro i
  have h0 := congrFun h ValueIdx.ix0
  dsimp only [Cert.Pre_finite_inputs.fn] at h0
  -- the conjunction over all entries holds, so the entry's conjunct does
  have hi := Host.reduce_andi_all _ _ _ _ _ h0 i
  -- the conjunct reads |X i| < the value of the infinity word
  have hc : Ideal.cmp .olt (max (X i) (-(X i))) (Ideal.ofBits .f32 0x7F800000#32) = 1#1 := hi
  rw [posInfW_eq] at hc
  refine ne_top_bot_of_abs_lt_top (X i) ?_
  -- the comparison word is 1 only if the comparison holds
  by_contra hn
  have hc' : BitVec.ofBool (decide (max (X i) (-(X i)) < (⊤ : EReal))) = 1#1 := hc
  rw [decide_eq_false hn] at hc'
  exact absurd hc' (by decide)

end Cert.Stats

end
-- ==== Proof.RefRun.lean ====
/-
  The reference program's run, written out: @main with the three functions it calls placed at their call
  sites is one straight line of thirty-four tensor operations. Every weakly fair execution of it terminates
  with each buffer at the line's fold over the launch contents; read at the result buffer the fold is the
  composed term `refOut` of the argument: the mean, the standard deviation (centred form, behind a select on
  n - 1 > 0), the maximum and the minimum over the last two axes, joined along axis 1.
-/
import proofs.«168508_j23227183136952_2_alg».proof.ReferenceIdeal
import proofs.«168508_j23227183136952_2_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-! ## The composed term -/

/-- The sum over the last two axes, from the zero word. -/
def refSum (x : FVec F S32x16x512x512 .f32) : FVec F S32x16 .f32 :=
  Host.reduceAdd (F := F) x (constant (F := F) S_ .f32 0x00000000#32) reducesTo_S32x16x512x512_S32x16_d2_3 h_S_

/-- The mean: the sum over the word of 262144 at every index. -/
def refMean (x : FVec F S32x16x512x512 .f32) : FVec F S32x16 .f32 :=
  Host.divf (F := F) (refSum x) (broadcastInDim S32x16 ![] bcast_S_S32x16 (constant (F := F) S_ .f32 0x48800000#32))

/-- The same quotient taken on the [32, 16, 1, 1] array that keeps the reduced axes. -/
def refMeanKeep (x : FVec F S32x16x512x512 .f32) : FVec F S32x16x1x1 .f32 :=
  Host.divf (F := F) (broadcastInDim S32x16x1x1 ![0, 1] bcast_S32x16_S32x16x1x1_0_1 (refSum x))
    (broadcastInDim S32x16x1x1 ![] bcast_S_S32x16x1x1 (constant (F := F) S_ .f32 0x48800000#32))

/-- The deviations from the mean, squared. -/
def refSq (x : FVec F S32x16x512x512 .f32) : FVec F S32x16x512x512 .f32 :=
  mulf (F := F)
    (subf (F := F) x (broadcastInDim S32x16x512x512 ![0, 1, 2, 3] bcast_S32x16x1x1_S32x16x512x512_0_1_2_3 (refMeanKeep x)))
    (subf (F := F) x (broadcastInDim S32x16x512x512 ![0, 1, 2, 3] bcast_S32x16x1x1_S32x16x512x512_0_1_2_3 (refMeanKeep x)))

/-- n - 1: the word of 262144 less the integer 1 converted. -/
def refNm1 : FVec F S_ .f32 :=
  subf (F := F) (constant (F := F) S_ .f32 0x48800000#32) (sitofp (F := F) .f32 (constantI S_ 32 1#32))

/-- The sum of the squared deviations over n - 1. -/
def refVarQ (x : FVec F S32x16x512x512 .f32) : FVec F S32x16 .f32 :=
  Host.divf (F := F)
    (Host.reduceAdd (F := F) (refSq x) (constant (F := F) S_ .f32 0x00000000#32) reducesTo_S32x16x512x512_S32x16_d2_3 h_S_)
    (broadcastInDim S32x16 ![] bcast_S_S32x16 (refNm1 (F := F)))

/-- The variance: that quotient where n - 1 > 0, the NaN word elsewhere. -/
def refVar (x : FVec F S32x16x512x512 .f32) : FVec F S32x16 .f32 :=
  select (broadcastInDim S32x16 ![] bcast_S_S32x16 (cmpf (F := F) .ogt (refNm1 (F := F)) (constant (F := F) S_ .f32 0x00000000#32)))
    (refVarQ x) (broadcastInDim S32x16 ![] bcast_S_S32x16 (constant (F := F) S_ .f32 0x7FC00000#32))

/-- The standard deviation. -/
def refStd (x : FVec F S32x16x512x512 .f32) : FVec F S32x16 .f32 := Host.sqrt (F := F) (refVar x)

/-- The maximum over the last two axes, from the word of minus infinity. -/
def refMax (x : FVec F S32x16x512x512 .f32) : FVec F S32x16 .f32 :=
  Host.reduce FloatOps.maximumf x (constant (F := F) S_ .f32 0xFF800000#32) reducesTo_S32x16x512x512_S32x16_d2_3 h_S_

/-- The minimum over the last two axes, from the word of plus infinity. -/
def refMin (x : FVec F S32x16x512x512 .f32) : FVec F S32x16 .f32 :=
  Host.reduce FloatOps.minimumf x (constant (F := F) S_ .f32 0x7F800000#32) reducesTo_S32x16x512x512_S32x16_d2_3 h_S_

/-- The result: the four statistics side by side along axis 1. -/
def refOut (x : FVec F S32x16x512x512 .f32) : FVec F S32x64 .f32 :=
  concatenate S32x64 1 [⟨S32x16, refMean x⟩, ⟨S32x16, refStd x⟩, ⟨S32x16, refMax x⟩, ⟨S32x16, refMin x⟩]
    concatenates_S32x16_S32x16_S32x16_S32x16_S32x64_d1

/-! ## The straight line -/

/-- @main's operations in order, the calls unfolded: six of its own, then the standard deviation's twenty-three
    (the variance's nineteen, the select's three, the root), then the two extreme reductions with their initial
    words and the concatenation. -/
abbrev ops : List (HloOp τ sig (Elt F)) :=
  [ nullary main_cst (constant S_ .f32 0x00000000#32),
    binary main_arg0 main_cst main_v0 ((fun x v => Host.reduceAdd x v reducesTo_S32x16x512x512_S32x16_d2_3 h_S_) : (⟨S32x16x512x512, .f32⟩ : BufTy).Contents (Elt F) → (⟨S_, .f32⟩ : BufTy).Contents (Elt F) → (⟨S32x16, .f32⟩ : BufTy).Contents (Elt F)),
    nullary main_cst_0 (constant S_ .f32 0x48800000#32),
    unary main_cst_0 main_v1 (broadcastInDim S32x16 ![] bcast_S_S32x16 : (⟨S_, .f32⟩ : BufTy).Contents (Elt F) → (⟨S32x16, .f32⟩ : BufTy).Contents (Elt F)),
    binary main_v0 main_v1 main_v2 (Host.divf : (⟨S32x16, .f32⟩ : BufTy).Contents (Elt F) → (⟨S32x16, .f32⟩ : BufTy).Contents (Elt F) → (⟨S32x16, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S32x16x512x512_S32x16_d2_3 h_S_),
    TRef.unary main_call0.call0.v0 main_call0.call0.v1 (broadcastInDim S32x16x1x1 ![0, 1] bcast_S32x16_S32x16x1x1_0_1),
    TRef.nullary main_call0.call0.cst_0 (constant S_ .f32 0x48800000#32),
    TRef.unary main_call0.call0.cst_0 main_call0.call0.v2 (broadcastInDim S32x16x1x1 ![] bcast_S_S32x16x1x1),
    TRef.binary main_call0.call0.v1 main_call0.call0.v2 main_call0.call0.v3 Host.divf,
    TRef.unary main_call0.call0.v3 main_call0.call0.v4 (broadcastInDim S32x16x512x512 ![0, 1, 2, 3] bcast_S32x16x1x1_S32x16x512x512_0_1_2_3),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x48800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S32x16x512x512_S32x16_d2_3 h_S_),
    TRef.unary main_call0.call0.v8 main_call0.call0.v10 (broadcastInDim S32x16 ![] bcast_S_S32x16),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S32x16 ![] bcast_S_S32x16),
    TRef.ternary main_call0.call0.v12 main_call0.call0.v11 main_call0.call0.call0.v1 main_call0.call0.call0.v2 (fun p a b => select (broadcastInDim S32x16 ![] bcast_S_S32x16 p) a b),
    TRef.unary main_call0.call0.call0.v2 main_call0.v1 Host.sqrt,
    nullary main_cst_1 (constant S_ .f32 0xFF800000#32),
    binary main_arg0 main_cst_1 main_v4 ((fun x v => Host.reduce FloatOps.maximumf x v reducesTo_S32x16x512x512_S32x16_d2_3 h_S_) : (⟨S32x16x512x512, .f32⟩ : BufTy).Contents (Elt F) → (⟨S_, .f32⟩ : BufTy).Contents (Elt F) → (⟨S32x16, .f32⟩ : BufTy).Contents (Elt F)),
    nullary main_cst_2 (constant S_ .f32 0x7F800000#32),
    binary main_arg0 main_cst_2 main_v5 ((fun x v => Host.reduce FloatOps.minimumf x v reducesTo_S32x16x512x512_S32x16_d2_3 h_S_) : (⟨S32x16x512x512, .f32⟩ : BufTy).Contents (Elt F) → (⟨S_, .f32⟩ : BufTy).Contents (Elt F) → (⟨S32x16, .f32⟩ : BufTy).Contents (Elt F)),
    nary ![main_v2, main_v3, main_v4, main_v5] main_v6 (fun u => concatenate S32x64 1 [⟨S32x16, u 0⟩, ⟨S32x16, u 1⟩, ⟨S32x16, u 2⟩, ⟨S32x16, u 3⟩] concatenates_S32x16_S32x16_S32x16_S32x16_S32x64_d1) ]

set_option maxRecDepth 1024 in
/-- @main is that straight line: the functions' definitions unfolded at their calls and the records at their
    fields, both sides are one chain of steps once sequencing is reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub ..,
    nullary_bufs_sub .., binary_bufs_sub .., nullary_bufs_sub .., binary_bufs_sub .., nary_bufs_sub ..⟩

/-- From any memory with zero counters every weakly fair execution of @main terminates, and every final state
    has each buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd in
set_option maxRecDepth 8192 in
set_option maxHeartbeats 400000 in
/-- The fold read at the result buffer is the composed term of the argument: each operation's result decides
    whether the buffer read is the one it writes, all by computation. The reductions stay folded meanwhile. -/
theorem out_eq (V : Valuation τ sig (Elt F)) :
    after ops V (main_v6 : DevRef τ sig) = refOut (V (main_arg0 : DevRef τ sig)) := by
  simp only [after_cons, after_nil]
  rfl

/-- No operation writes the argument. -/
theorem arg0_eq (V : Valuation τ sig (Elt F)) :
    after ops V (main_arg0 : DevRef τ sig) = V (main_arg0 : DevRef τ sig) := by
  simp only [after_cons, after_nil]
  rfl

end Cert.ReferenceIdeal.RefValue

end
-- ==== Proof.RefPlane.lean ====
/-
  The plane of a (batch, channel) pair inside a [32, 16, 512, 512] array: the indices that dropping the last two
  axes sends to (b, ch) are exactly the 512 x 512 indices (b, ch, i, j), once each. So a sum over them is the double
  sum over i and j, and a maximum (minimum) folded over them from the bottom (top) element is the double supremum
  (infimum).
-/
import proofs.«168508_j23227183136952_2_alg».proof.Proof.Spec
import proofs.«168508_j23227183136952_2_alg».proof.Proof.LibOrderFold
import Idealize.ShloMosaic.Lib.ValueIdx
import Idealize.ShloMosaic.PureOps.Ideal.Laws
import Idealize.ShloMosaic.PureOps.Reduce

noncomputable section

namespace Cert.ReferenceIdeal.RefPlane

open Idealize.ShloMosaic Idealize.ShloMosaic.ValueIdx Cert.Stats
open scoped BigOperators

variable (h : A4.ReducesTo [2, 3] A2)

/-- The point (b, ch, i, j) as an index of the array. -/
abbrev pt (b : Fin 32) (ch : Fin 16) (p : Fin 512 × Fin 512) : A4.Idx := ix4 b ch p.1 p.2

/-- Dropping the last two axes of (b, ch, i, j) leaves (b, ch). -/
theorem drop_pt (b : Fin 32) (ch : Fin 16) (p : Fin 512 × Fin 512) : h.drop (pt b ch p) = ix2 b ch := by
  funext a
  match a with
  | ⟨0, _⟩ => exact Fin.ext (h.drop_apply_val_of_eq (pt b ch p) 0 0)
  | ⟨1, _⟩ => exact Fin.ext (h.drop_apply_val_of_eq (pt b ch p) 1 1)

theorem pt_injective (b : Fin 32) (ch : Fin 16) : Function.Injective (pt b ch) := by
  intro p q hpq
  have h2 := congrFun hpq 2
  have h3 := congrFun hpq 3
  exact Prod.ext h2 h3

/-- The indices that drop to (b, ch) are the points of its plane. -/
theorem filter_drop_eq (b : Fin 32) (ch : Fin 16) :
    (Finset.univ.filter fun i : A4.Idx => h.drop i = ix2 b ch) = Finset.univ.image (pt b ch) := by
  ext i
  simp only [Finset.mem_filter, Finset.mem_univ, true_and, Finset.mem_image]
  constructor
  · intro hd
    have h0 : ((h.drop i) 0 : Nat) = (i 0 : Nat) := h.drop_apply_val_of_eq i 0 0
    have h1 : ((h.drop i) 1 : Nat) = (i 1 : Nat) := h.drop_apply_val_of_eq i 1 1
    rw [hd] at h0 h1
    refine ⟨((i 2 : Fin 512), (i 3 : Fin 512)), ?_⟩
    funext a
    match a with
    | ⟨0, _⟩ => exact Fin.ext h0
    | ⟨1, _⟩ => exact Fin.ext h1
    | ⟨2, _⟩ => rfl
    | ⟨3, _⟩ => rfl
  · rintro ⟨p, rfl⟩
    exact drop_pt h b ch p

/-- A sum over the indices that drop to (b, ch) is the double sum over the plane. -/
theorem sum_filter_drop (x : A4.Idx → EReal) (b : Fin 32) (ch : Fin 16) :
    ∑ i ∈ Finset.univ.filter (fun i : A4.Idx => h.drop i = ix2 b ch), x i
      = ∑ i : Fin 512, ∑ j : Fin 512, x (ix4 b ch i j) := by
  rw [filter_drop_eq, Finset.sum_image (fun p _ q _ hpq => pt_injective b ch hpq), Fintype.sum_prod_type]

/-- The exact host sum read at (b, ch): the initial value plus the plane's double sum. -/
theorem hostReduceAdd_apply (x : A4.Idx → EReal) (init : EReal) (b : Fin 32) (ch : Fin 16) :
    Ideal.hostReduceAdd h x init (ix2 b ch) = init + ∑ i : Fin 512, ∑ j : Fin 512, x (ix4 b ch i j) := by
  unfold Ideal.hostReduceAdd
  rw [sum_filter_drop]

/-- A maximum folded from the bottom element over the indices that drop to (b, ch) is the plane's supremum. -/
theorem fold_max_filter_drop (x : A4.Idx → EReal) (b : Fin 32) (ch : Fin 16) :
    (Finset.univ.filter fun i : A4.Idx => h.drop i = ix2 b ch).fold max ⊥ x
      = ⨆ i : Fin 512, ⨆ j : Fin 512, x (ix4 b ch i j) := by
  rw [filter_drop_eq, Finset.fold_image (fun p _ q _ hpq => pt_injective b ch hpq), OrderFold.fold_max_bot, iSup_prod]
  rfl

/-- A minimum folded from the top element over the indices that drop to (b, ch) is the plane's infimum. -/
theorem fold_min_filter_drop (x : A4.Idx → EReal) (b : Fin 32) (ch : Fin 16) :
    (Finset.univ.filter fun i : A4.Idx => h.drop i = ix2 b ch).fold min ⊤ x
      = ⨅ i : Fin 512, ⨅ j : Fin 512, x (ix4 b ch i j) := by
  rw [filter_drop_eq, Finset.fold_image (fun p _ q _ hpq => pt_injective b ch hpq), OrderFold.fold_min_top, iInf_prod]
  rfl

end Cert.ReferenceIdeal.RefPlane

end
-- ==== Proof.RefRead.lean ====
/-
  The reference's result read back as the statistics of the specification. At the extended reals each of the
  four components of the composed term, read at (b, ch), is the specification's: the host sum over the last two
  axes is zero plus the plane's double sum, so the first quotient is the mean; the quotient through the
  [32, 16, 1, 1] array is the same mean at every point of the plane, so the second sum is that of the squared
  deviations, its divisor n - 1 is positive, the select keeps its first branch, and the root of the quotient is the
  centred standard deviation; the two extreme reductions from the infinities are the plane's supremum and infimum.
-/
import proofs.«168508_j23227183136952_2_alg».proof.Proof.RefRun
import proofs.«168508_j23227183136952_2_alg».proof.Proof.RefPlane
import proofs.«168508_j23227183136952_2_alg».proof.Proof.Spec
import proofs.«168508_j23227183136952_2_alg».proof.Proof.LibOrderFold
import Idealize.ShloMosaic.Lib.ValueIdx
import Idealize.ShloMosaic.PureOps.Ideal.Laws
import Idealize.ShloMosaic.PureOps.Reduce

noncomputable section

namespace Cert.ReferenceIdeal.RefValue

open Cert.ReferenceIdeal Idealize.ShloMosaic Idealize.ShloMosaic.ValueIdx Idealize.ShloMosaic.TcCoe Idealize.SL.Sem
open Idealize.ShloMosaic.StableHlo Cert.Stats
open Cert.ReferenceIdeal.Facts₀
open scoped BigOperators

/-! ## Broadcasts read at an index -/

/-- The [32, 16] array broadcast to [32, 16, 1, 1] along its two axes reads, at an index whose first two
    coordinates are b and ch, the source at (b, ch). -/
theorem bcastKeep_apply (hb : S32x16.BroadcastsInDim S32x16x1x1 (![0, 1] : Fin 2 → Fin S32x16x1x1.rank))
    (u : S32x16.Idx → EReal) (b : Fin 32) (ch : Fin 16) (k : S32x16x1x1.Idx)
    (h0 : (k 0).val = b.val) (h1 : (k 1).val = ch.val) :
    broadcastInDim S32x16x1x1 ![0, 1] hb u k = u (ix2 b ch) := by
  unfold broadcastInDim
  congr 1
  funext a
  match a with
  | ⟨0, _⟩ => exact Fin.ext h0
  | ⟨1, _⟩ => exact Fin.ext h1

/-- The [32, 16, 1, 1] array broadcast to [32, 16, 512, 512] reads, at (b, ch, i, j), the source at (b, ch, 0, 0). -/
theorem bcastFull_apply (hb : S32x16x1x1.BroadcastsInDim S32x16x512x512 (![0, 1, 2, 3] : Fin 4 → Fin S32x16x512x512.rank))
    (u : S32x16x1x1.Idx → EReal) (b : Fin 32) (ch : Fin 16) (i j : Fin 512) :
    broadcastInDim S32x16x512x512 ![0, 1, 2, 3] hb u (ix4 b ch i j) = u (ix4 b ch 0 0) := by
  unfold broadcastInDim
  congr 1
  funext a
  match a with
  | ⟨0, _⟩ => rfl
  | ⟨1, _⟩ => rfl
  | ⟨2, _⟩ => rfl
  | ⟨3, _⟩ => rfl

/-! ## The mean -/

theorem refSum_apply (x : A4.Idx → EReal) (b : Fin 32) (ch : Fin 16) :
    refSum (F := Ideal) x (ix2 b ch) = tot x b ch := by
  show Ideal.hostReduceAdd (reducesTo_S32x16x512x512_S32x16_d2_3 : A4.ReducesTo [2, 3] A2) x
    (Ideal.ofBits .f32 0x00000000#32) (ix2 b ch) = _
  rw [RefPlane.hostReduceAdd_apply, zeroW_eq, zero_add]
  rfl

theorem refMean_apply (x : A4.Idx → EReal) (b : Fin 32) (ch : Fin 16) :
    refMean (F := Ideal) x (ix2 b ch) = mean x b ch := by
  show Ideal.div (refSum (F := Ideal) x (ix2 b ch)) (Ideal.ofBits .f32 0x48800000#32) = _
  rw [refSum_apply]
  rfl

/-- The first component is the mean. -/
theorem refMean_eq (x : A4.Idx → EReal) : refMean (F := Ideal) x = meanA x := by
  funext j
  rw [eq_ix2 j]
  exact refMean_apply x (j 0) (j 1)

/-! ## The standard deviation -/

theorem refMeanKeep_apply (x : A4.Idx → EReal) (b : Fin 32) (ch : Fin 16) :
    refMeanKeep (F := Ideal) x (ix4 b ch 0 0) = mean x b ch := by
  show Ideal.div (broadcastInDim S32x16x1x1 ![0, 1] bcast_S32x16_S32x16x1x1_0_1 (refSum (F := Ideal) x) (ix4 b ch 0 0))
    (Ideal.ofBits .f32 0x48800000#32) = _
  rw [bcastKeep_apply _ _ b ch _ rfl rfl, refSum_apply]
  rfl

theorem refSq_apply (x : A4.Idx → EReal) (b : Fin 32) (ch : Fin 16) (i j : Fin 512) :
    refSq (F := Ideal) x (ix4 b ch i j)
      = (x (ix4 b ch i j) - mean x b ch) * (x (ix4 b ch i j) - mean x b ch) := by
  show (x (ix4 b ch i j) - broadcastInDim S32x16x512x512 ![0, 1, 2, 3] bcast_S32x16x1x1_S32x16x512x512_0_1_2_3
          (refMeanKeep (F := Ideal) x) (ix4 b ch i j))
      * (x (ix4 b ch i j) - broadcastInDim S32x16x512x512 ![0, 1, 2, 3] bcast_S32x16x1x1_S32x16x512x512_0_1_2_3
          (refMeanKeep (F := Ideal) x) (ix4 b ch i j)) = _
  rw [bcastFull_apply, refMeanKeep_apply]

/-- n - 1 as the reference spells it: the word of 262144 less the integer 1 converted. -/
theorem refNm1_apply (k : S_.Idx) : refNm1 (F := Ideal) k = nW - ((1 : ℝ) : EReal) := by
  show Ideal.ofBits .f32 0x48800000#32 - ((((1#32 : BitVec 32).toInt : ℤ) : ℝ) : EReal) = nW - ((1 : ℝ) : EReal)
  have h1 : (1#32 : BitVec 32).toInt = 1 := by decide
  rw [h1, Int.cast_one]
  rfl

theorem nm1_pos : (0 : EReal) < nW - ((1 : ℝ) : EReal) := by
  rw [nW_eq, ← EReal.coe_sub, ← EReal.coe_zero, EReal.coe_lt_coe_iff]
  norm_num

theorem refVarQ_apply (x : A4.Idx → EReal) (b : Fin 32) (ch : Fin 16) :
    refVarQ (F := Ideal) x (ix2 b ch)
      = Ideal.div (∑ i : Fin 512, ∑ j : Fin 512,
          (x (ix4 b ch i j) - mean x b ch) * (x (ix4 b ch i j) - mean x b ch)) (nW - ((1 : ℝ) : EReal)) := by
  show Ideal.div (Ideal.hostReduceAdd (reducesTo_S32x16x512x512_S32x16_d2_3 : A4.ReducesTo [2, 3] A2)
      (refSq (F := Ideal) x) (Ideal.ofBits .f32 0x00000000#32) (ix2 b ch)) (refNm1 (F := Ideal) _) = _
  rw [RefPlane.hostReduceAdd_apply, zeroW_eq, zero_add, refNm1_apply]
  simp only [refSq_apply]

/-- n - 1 > 0, so the select keeps the quotient. -/
theorem refVar_apply (x : A4.Idx → EReal) (b : Fin 32) (ch : Fin 16) :
    refVar (F := Ideal) x (ix2 b ch) = refVarQ (F := Ideal) x (ix2 b ch) := by
  show Scalar.select (Ideal.cmp .ogt (refNm1 (F := Ideal) _) (Ideal.ofBits .f32 0x00000000#32))
    (refVarQ (F := Ideal) x (ix2 b ch)) _ = _
  rw [refNm1_apply, zeroW_eq]
  have hc : Ideal.cmp .ogt (nW - ((1 : ℝ) : EReal)) 0 = 1#1 := by
    simp only [Ideal.cmp, nm1_pos, decide_true]
    rfl
  rw [hc, select_one]

theorem refStd_apply (x : A4.Idx → EReal) (b : Fin 32) (ch : Fin 16) :
    refStd (F := Ideal) x (ix2 b ch) = stdCentred x b ch := by
  show Ideal.sqrt (refVar (F := Ideal) x (ix2 b ch)) = _
  rw [refVar_apply, refVarQ_apply]
  rfl

/-- The second component is the standard deviation in its centred form. -/
theorem refStd_eq (x : A4.Idx → EReal) : refStd (F := Ideal) x = stdCentredA x := by
  funext j
  rw [eq_ix2 j]
  exact refStd_apply x (j 0) (j 1)

/-! ## The extremes -/

theorem refMax_apply (x : A4.Idx → EReal) (b : Fin 32) (ch : Fin 16) :
    refMax (F := Ideal) x (ix2 b ch) = hi x b ch := by
  unfold refMax
  rw [Host.reduce_eq_fold]
  show (Finset.univ.filter fun i : A4.Idx =>
      (reducesTo_S32x16x512x512_S32x16_d2_3 : A4.ReducesTo [2, 3] A2).drop i = ix2 b ch).fold max
        (Ideal.ofBits .f32 0xFF800000#32) x = _
  rw [negInfW_eq, RefPlane.fold_max_filter_drop]
  rfl

theorem refMin_apply (x : A4.Idx → EReal) (b : Fin 32) (ch : Fin 16) :
    refMin (F := Ideal) x (ix2 b ch) = lo x b ch := by
  unfold refMin
  rw [Host.reduce_eq_fold]
  show (Finset.univ.filter fun i : A4.Idx =>
      (reducesTo_S32x16x512x512_S32x16_d2_3 : A4.ReducesTo [2, 3] A2).drop i = ix2 b ch).fold min
        (Ideal.ofBits .f32 0x7F800000#32) x = _
  rw [posInfW_eq, RefPlane.fold_min_filter_drop]
  rfl

/-- The third component is the supremum, the fourth the infimum. -/
theorem refMax_eq (x : A4.Idx → EReal) : refMax (F := Ideal) x = hiA x := by
  funext j
  rw [eq_ix2 j]
  exact refMax_apply x (j 0) (j 1)

theorem refMin_eq (x : A4.Idx → EReal) : refMin (F := Ideal) x = loA x := by
  funext j
  rw [eq_ix2 j]
  exact refMin_apply x (j 0) (j 1)

/-! ## The result -/

/-- The composed term is the four statistics of its argument, joined along axis 1. -/
theorem refOut_eq (x : A4.Idx → EReal) :
    refOut (F := Ideal) x
      = packed Facts₀.concatenates_S32x16_S32x16_S32x16_S32x16_S32x64_d1 (meanA x) (stdCentredA x) (hiA x) (loA x) := by
  unfold refOut packed
  rw [refMean_eq, refStd_eq, refMax_eq, refMin_eq]

/-- From any memory with zero counters every weakly fair execution of the reference terminates; its result buffer
    then holds the mean, the centred standard deviation, the supremum and the infimum of the argument's planes,
    joined along axis 1, and the argument is unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
          = Cert.Stats.packed Facts₀.concatenates_S32x16_S32x16_S32x16_S32x16_S32x64_d1
              (Cert.Stats.meanA (m ((c.tc : Thread nD τ).loc main_arg0))) (Cert.Stats.stdCentredA (m ((c.tc : Thread nD τ).loc main_arg0)))
              (Cert.Stats.hiA (m ((c.tc : Thread nD τ).loc main_arg0))) (Cert.Stats.loA (m ((c.tc : Thread nD τ).loc main_arg0)))
        ∧ r.2.mem ((c.tc : Thread nD τ).loc main_arg0) = m ((c.tc : Thread nD τ).loc main_arg0)) :=
  (θ_run defs _ _).mono
    (fun _ h c => ⟨(h c main_v6).trans ((out_eq _).trans (refOut_eq _)), (h c main_arg0).trans (arg0_eq _)⟩)
    (run_main m ρ)

end Cert.ReferenceIdeal.RefValue

end
-- ==== Proof.Assemble.lean ====
/-
  The two programs' results are equal.

  The tiled program ends with, on every device, the four [32, 16] statistics of its argument X joined along the channel
  axis: the mean, the standard deviation in its moment form, the maximum and the minimum of every 512 x 512 plane. The
  plain program ends with the same four, the standard deviation in its centred form. From memories that agree on the
  argument, and the argument's entries all finite, the moment form and the centred form are one extended real at
  every (batch, channel) pair, so the two results are one array; both programs leave the argument as they found it.
  The statement about the tiled program's run is taken here as a hypothesis.
-/
import proofs.«168508_j23227183136952_2_alg».proof.Defs
import proofs.«168508_j23227183136952_2_alg».proof.Proof.Gen.KernelIdeal
import proofs.«168508_j23227183136952_2_alg».proof.Proof.Gen.ReferenceIdeal
import proofs.«168508_j23227183136952_2_alg».proof.Proof.Gen.Pre_finite_inputs
import proofs.«168508_j23227183136952_2_alg».proof.Proof.Spec
import proofs.«168508_j23227183136952_2_alg».proof.Proof.StdLaw
import proofs.«168508_j23227183136952_2_alg».proof.Proof.FiniteInputs
import proofs.«168508_j23227183136952_2_alg».proof.Proof.RefRead

noncomputable section

namespace Cert.Proof.Assemble

open Idealize.ShloMosaic Idealize.ShloMosaic.TcCoe Idealize.SL.Sem

/-- The tiled program's run on the extended reals: it terminates without fault, its result buffer holds the four
    statistics of the argument (the standard deviation in the moment form) joined along the channel axis, and the
    argument is unchanged. -/
def KRun : Prop :=
  ∀ (m : (ℓ : Loc Cert.KernelIdeal.nD Cert.KernelIdeal.τ Cert.KernelIdeal.sig) → Buf (Elt Ideal) ℓ)
    (ρ : Dev Cert.KernelIdeal.nD → PrngReg),
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v1)
            = Cert.Stats.packed Cert.KernelIdeal.Facts₀.concatenates_S32x16_S32x16_S32x16_S32x16_S32x64_d1
                (Cert.Stats.meanA (m ((c.tc : Thread Cert.KernelIdeal.nD Cert.KernelIdeal.τ).loc Cert.KernelIdeal.main_arg0)))
                (Cert.Stats.stdMomentA (m ((c.tc : Thread Cert.KernelIdeal.nD Cert.KernelIdeal.τ).loc Cert.KernelIdeal.main_arg0)))
                (Cert.Stats.hiA (m ((c.tc : Thread Cert.KernelIdeal.nD Cert.KernelIdeal.τ).loc Cert.KernelIdeal.main_arg0)))
                (Cert.Stats.loA (m ((c.tc : Thread Cert.KernelIdeal.nD Cert.KernelIdeal.τ).loc Cert.KernelIdeal.main_arg0)))
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0))

/-- Given the tiled program's run, the two programs end with equal results and unchanged arguments. -/
theorem algebraic_of (hK : KRun) : Cert.algebraic_KernelIdeal_ReferenceIdeal := by
  intro m ρ m' ρ' hpre hagree
  refine ⟨fun c => Cert.Stats.packed Cert.KernelIdeal.Facts₀.concatenates_S32x16_S32x16_S32x16_S32x16_S32x64_d1
      (Cert.Stats.meanA (m ((c.tc : Thread Cert.KernelIdeal.nD Cert.KernelIdeal.τ).loc Cert.KernelIdeal.main_arg0)))
      (Cert.Stats.stdMomentA (m ((c.tc : Thread Cert.KernelIdeal.nD Cert.KernelIdeal.τ).loc Cert.KernelIdeal.main_arg0)))
      (Cert.Stats.hiA (m ((c.tc : Thread Cert.KernelIdeal.nD Cert.KernelIdeal.τ).loc Cert.KernelIdeal.main_arg0)))
      (Cert.Stats.loA (m ((c.tc : Thread Cert.KernelIdeal.nD Cert.KernelIdeal.τ).loc Cert.KernelIdeal.main_arg0))),
    hK m ρ, ?_⟩
  refine (θ_run Cert.ReferenceIdeal.defs _ _).mono (fun _ h c => ⟨(h c).1.trans ?_, (h c).2⟩)
    (Cert.ReferenceIdeal.RefValue.run m' ρ')
  -- the plain program's argument is the tiled program's, and on finite entries the two standard deviations agree
  rw [hagree c]
  beta_reduce
  rw [Cert.Stats.stdMomentA_eq_stdCentredA _ (Cert.Stats.finite_of_pre _ (hpre c))]

/-- The plain program runs and leaves its argument unchanged. -/
theorem frame_reference : Cert.frame_ReferenceIdeal := fun m ρ _ =>
  (θ_run Cert.ReferenceIdeal.defs _ _).mono (fun _ h c => (h c).2) (Cert.ReferenceIdeal.RefValue.run m ρ)

/-- Given its run, the tiled program on the extended reals runs and leaves its argument unchanged. -/
theorem frame_kernelIdeal_of (hK : KRun) : Cert.frame_KernelIdeal := fun m ρ _ =>
  (θ_run Cert.KernelIdeal.defs _ _).mono (fun _ h c => (h c).2) (hK m ρ)

end Cert.Proof.Assemble

end
-- ==== Proof.lean ====
/-
  Per-plane statistics of a [32, 16, 512, 512] array: for each (batch, channel) pair the mean, the unbiased standard
  deviation, the maximum and the minimum of its 512 x 512 plane, the four [32, 16] results joined along the channel
  axis into [32, 64].

  The kernel walks a 4 x 8 grid: a point stages the block of 8 batches, all 16 channels, 64 rows and all 512 lanes,
  reduces it over lanes and then over rows (a sum, a sum of squares, a maximum and a minimum per plane), and folds the
  four [8, 16] partial results into four accumulators that live across the 8 row blocks of a batch block: they are
  reset to 0, 0, -inf, +inf at the first row block, and at the last one the outputs receive  total / n,
  sqrt (max ((squares - total^2 / n) / (n - 1)) 0),  the maximum and the minimum (n = 262144 = 512 * 512); only those
  points write the output blocks back. The reference takes each statistic over the whole plane in one reduction and
  the standard deviation from the squared deviations about the mean, sqrt (sum (x - mean)^2 / (n - 1)).

  Read at the extended reals the two programs agree: sums, suprema and infima over a plane do not depend on how the
  plane is cut into row blocks (addition, max and min are commutative and associative there, so no finiteness is
  needed), which gives the mean, the maximum and the minimum. For the standard deviation the identity
  sum (x - mean)^2 = sum x^2 - (sum x)^2 / n is an identity of real numbers and needs every entry finite (at an
  infinite entry both sides are junk of different kinds); it also shows the kernel's clamp at 0 is the identity, the
  left side being a sum of squares. Finiteness of the entries is what the precondition states.

  The frames (each program runs to the end and leaves its argument unchanged): for the kernel, word level and
  idealized, the body is run once per control case (first, middle, last row block) and the region's invariant carries
  the four accumulators from point to point; for the reference, its straight line of host operations is run as one
  sequence. The idealization rewrote no operation, so there is nothing to preserve beyond the text itself.
-/
import proofs.«168508_j23227183136952_2_alg».proof.Defs
import proofs.«168508_j23227183136952_2_alg».proof.Proof.Gen.Kernel
import proofs.«168508_j23227183136952_2_alg».proof.Proof.Gen.KernelIdeal
import proofs.«168508_j23227183136952_2_alg».proof.Proof.Gen.ReferenceIdeal
import proofs.«168508_j23227183136952_2_alg».proof.Proof.Gen.Pre_finite_inputs
import proofs.«168508_j23227183136952_2_alg».proof.Proof.WordFrame
import proofs.«168508_j23227183136952_2_alg».proof.Proof.IdealFrame
import proofs.«168508_j23227183136952_2_alg».proof.Proof.IdealResult
import proofs.«168508_j23227183136952_2_alg».proof.Proof.Assemble

noncomputable section

namespace Cert.Proof

open Idealize.ShloMosaic Idealize.SL.Sem

/-- The word-level kernel runs to the end and leaves its argument unchanged. -/
theorem frame_word : Cert.frame_Kernel := fun m ρ _ => Cert.Kernel.Hand.frame m ρ

/-- So does the idealized kernel. -/
theorem frame_ideal : Cert.frame_KernelIdeal := fun m ρ _ => Cert.KernelIdeal.Hand.frame m ρ

/-- The idealization rewrote nothing. -/
theorem preserves : Cert.preserves_Kernel_KernelIdeal := trivial

/-- The two idealized programs return the same array: the kernel's run names its result as the packed statistics with
    the moment form of the standard deviation, the reference's with the centred form, and on finite entries the two
    forms are one. -/
theorem algebraic : Cert.algebraic_KernelIdeal_ReferenceIdeal :=
  Assemble.algebraic_of Cert.KernelIdeal.KResult.run

theorem claim : Cert.Claim :=
  ⟨Cert.Kernel.Gen.facts, Cert.KernelIdeal.Gen.facts, Cert.ReferenceIdeal.Gen.facts, Cert.Pre_finite_inputs.Gen.facts,
    frame_word, frame_ideal, Assemble.frame_reference, preserves, algebraic⟩

end Cert.Proof

end
